-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v10)) (v1 : (c : Dev Cert.KernelIdeal.nD) → Buf (Elt Ideal) ((c.tc : Thread Cert.KernelIdeal.nD Cert.KernelIdeal.τ).loc Cert.KernelIdeal.main_v13)) (v2 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_v13) = v1 c
          ∧ r.2.mem ((c.tc : Thread Cert.KernelIdeal.nD Cert.KernelIdeal.τ).loc Cert.KernelIdeal.main_v16) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_v14) = v1 c
          ∧ r.2.mem ((c.tc : Thread Cert.ReferenceIdeal.nD Cert.ReferenceIdeal.τ).loc Cert.ReferenceIdeal.main_v16) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x3 : Shape := ⟨2, ![1000000, 3]⟩
abbrev S64x3x3 : Shape := ⟨3, ![64, 3, 3]⟩
abbrev S64x3 : Shape := ⟨2, ![64, 3]⟩
abbrev S1x64 : Shape := ⟨2, ![1, 64]⟩
abbrev S_ : Shape := ⟨0, ![]⟩

class Facts : Prop where
  bcast_S_S1000000x3 : S_.BroadcastsInDim S1000000x3 (![] : Fin 0 → Fin S1000000x3.rank)
  reducesTo_S1000000x3_S_d0_1 : S1000000x3.ReducesTo [0, 1] S_
  h_S_ : 0 < S_.numel
  bcast_S_S64x3x3 : S_.BroadcastsInDim S64x3x3 (![] : Fin 0 → Fin S64x3x3.rank)
  reducesTo_S64x3x3_S_d0_1_2 : S64x3x3.ReducesTo [0, 1, 2] S_
  bcast_S_S64x3 : S_.BroadcastsInDim S64x3 (![] : Fin 0 → Fin S64x3.rank)
  reducesTo_S64x3_S_d0_1 : S64x3.ReducesTo [0, 1] S_
  bcast_S_S1x64 : S_.BroadcastsInDim S1x64 (![] : Fin 0 → Fin S1x64.rank)
  reducesTo_S1x64_S_d0_1 : S1x64.ReducesTo [0, 1] S_

variable [Facts]

def fn_part1 {F : FTy → Type} [FloatOps F] (main_arg4 : FVec F S1x64 .f32) (main_arg5 : FVec F S1x64 .f32) (main_v13 : IVec S_ 1) (main_v16 : IVec S1x64 1) : IVec S_ 1 :=
  let main_c_5 : IVec S_ 1 := constantI S_ 1 1#1
  let main_v17 : IVec S_ 1 := (fun x v => Host.reduce IntOp.andi x v reducesTo_S1x64_S_d0_1 h_S_) main_v16 main_c_5
  let main_v18 : IVec S_ 1 := andi main_v13 main_v17
  let main_v19 : FVec F S1x64 .f32 := Host.absf main_arg4
  let main_cst_6 : FVec F S_ .f32 := constant S_ .f32 0x7F800000#32
  let main_v20 : FVec F S1x64 .f32 := broadcastInDim S1x64 ![] bcast_S_S1x64 main_cst_6
  let main_v21 : IVec S1x64 1 := cmpf .olt main_v19 main_v20
  let main_c_7 : IVec S_ 1 := constantI S_ 1 1#1
  let main_v22 : IVec S_ 1 := (fun x v => Host.reduce IntOp.andi x v reducesTo_S1x64_S_d0_1 h_S_) main_v21 main_c_7
  let main_v23 : IVec S_ 1 := andi main_v18 main_v22
  let main_v24 : FVec F S1x64 .f32 := Host.absf main_arg5
  let main_cst_8 : FVec F S_ .f32 := constant S_ .f32 0x7F800000#32
  let main_v25 : FVec F S1x64 .f32 := broadcastInDim S1x64 ![] bcast_S_S1x64 main_cst_8
  let main_v26 : IVec S1x64 1 := cmpf .olt main_v24 main_v25
  let main_c_9 : IVec S_ 1 := constantI S_ 1 1#1
  let main_v27 : IVec S_ 1 := (fun x v => Host.reduce IntOp.andi x v reducesTo_S1x64_S_d0_1 h_S_) main_v26 main_c_9
  let main_v28 : IVec S_ 1 := andi main_v23 main_v27
  main_v28

def fn {F : FTy → Type} [FloatOps F] (main_arg0 : FVec F S1000000x3 .f32) (main_arg1 : FVec F S64x3x3 .f32) (main_arg2 : FVec F S64x3 .f32) (main_arg3 : FVec F S1x64 .f32) (main_arg4 : FVec F S1x64 .f32) (main_arg5 : FVec F S1x64 .f32) : IVec S_ 1 :=
  let main_v0 : FVec F S1000000x3 .f32 := Host.absf main_arg0
  let main_cst : FVec F S_ .f32 := constant S_ .f32 0x7F800000#32
  let main_v1 : FVec F S1000000x3 .f32 := broadcastInDim S1000000x3 ![] bcast_S_S1000000x3 main_cst
  let main_v2 : IVec S1000000x3 1 := cmpf .olt main_v0 main_v1
  let main_c : IVec S_ 1 := constantI S_ 1 1#1
  let main_v3 : IVec S_ 1 := (fun x v => Host.reduce IntOp.andi x v reducesTo_S1000000x3_S_d0_1 h_S_) main_v2 main_c
  let main_v4 : FVec F S64x3x3 .f32 := Host.absf main_arg1
  let main_cst_0 : FVec F S_ .f32 := constant S_ .f32 0x7F800000#32
  let main_v5 : FVec F S64x3x3 .f32 := broadcastInDim S64x3x3 ![] bcast_S_S64x3x3 main_cst_0
  let main_v6 : IVec S64x3x3 1 := cmpf .olt main_v4 main_v5
  let main_c_1 : IVec S_ 1 := constantI S_ 1 1#1
  let main_v7 : IVec S_ 1 := (fun x v => Host.reduce IntOp.andi x v reducesTo_S64x3x3_S_d0_1_2 h_S_) main_v6 main_c_1
  let main_v8 : IVec S_ 1 := andi main_v3 main_v7
  let main_v9 : FVec F S64x3 .f32 := Host.absf main_arg2
  let main_cst_2 : FVec F S_ .f32 := constant S_ .f32 0x7F800000#32
  let main_v10 : FVec F S64x3 .f32 := broadcastInDim S64x3 ![] bcast_S_S64x3 main_cst_2
  let main_v11 : IVec S64x3 1 := cmpf .olt main_v9 main_v10
  let main_c_3 : IVec S_ 1 := constantI S_ 1 1#1
  let main_v12 : IVec S_ 1 := (fun x v => Host.reduce IntOp.andi x v reducesTo_S64x3_S_d0_1 h_S_) main_v11 main_c_3
  let main_v13 : IVec S_ 1 := andi main_v8 main_v12
  let main_v14 : FVec F S1x64 .f32 := Host.absf main_arg3
  let main_cst_4 : FVec F S_ .f32 := constant S_ .f32 0x7F800000#32
  let main_v15 : FVec F S1x64 .f32 := broadcastInDim S1x64 ![] bcast_S_S1x64 main_cst_4
  let main_v16 : IVec S1x64 1 := cmpf .olt main_v14 main_v15
  fn_part1 (F := F) main_arg4 main_arg5 main_v13 main_v16
-- ==== Kernel.lean ====
abbrev S1000000x3 : Shape := ⟨2, ![1000000, 3]⟩
abbrev S64x3x3 : Shape := ⟨3, ![64, 3, 3]⟩
abbrev S64x3 : Shape := ⟨2, ![64, 3]⟩
abbrev S1x64 : Shape := ⟨2, ![1, 64]⟩
abbrev S3x3x64 : Shape := ⟨3, ![3, 3, 64]⟩
abbrev S3x64 : Shape := ⟨2, ![3, 64]⟩
abbrev S3x1x64 : Shape := ⟨3, ![3, 1, 64]⟩
abbrev S1x1x64 : Shape := ⟨3, ![1, 1, 64]⟩
abbrev S3x1000000 : Shape := ⟨2, ![3, 1000000]⟩
abbrev S8192x3 : Shape := ⟨2, ![8192, 3]⟩
abbrev S3x8192 : Shape := ⟨2, ![3, 8192]⟩
abbrev S1x3x64 : Shape := ⟨3, ![1, 3, 64]⟩
abbrev S8192x64 : Shape := ⟨2, ![8192, 64]⟩
abbrev S1x8192 : Shape := ⟨2, ![1, 8192]⟩
abbrev S1x1000000 : Shape := ⟨2, ![1, 1000000]⟩
abbrev S1000000 : Shape := ⟨1, ![1000000]⟩
abbrev S1000000x1 : Shape := ⟨2, ![1000000, 1]⟩

abbrev nBuf : Space → Nat
  | .hbm => 23
  | .vmem => 7
  | .smem => 0
  | _ => 0

abbrev bufTy : (tb : Table) → Fin (tcTables nBuf tb) → BufTy
  | .hbm, ⟨0, _⟩ => ⟨S1000000x3, .f32⟩
  | .hbm, ⟨1, _⟩ => ⟨S64x3x3, .f32⟩
  | .hbm, ⟨2, _⟩ => ⟨S64x3, .f32⟩
  | .hbm, ⟨3, _⟩ => ⟨S1x64, .f32⟩
  | .hbm, ⟨4, _⟩ => ⟨S1x64, .f32⟩
  | .hbm, ⟨5, _⟩ => ⟨S1x64, .f32⟩
  | .hbm, ⟨6, _⟩ => ⟨S3x3x64, .f32⟩
  | .hbm, ⟨7, _⟩ => ⟨S3x64, .f32⟩
  | .hbm, ⟨8, _⟩ => ⟨S3x1x64, .f32⟩
  | .hbm, ⟨9, _⟩ => ⟨S1x1x64, .f32⟩
  | .hbm, ⟨10, _⟩ => ⟨S1x1x64, .f32⟩
  | .hbm, ⟨11, _⟩ => ⟨S1x1x64, .f32⟩
  | .hbm, ⟨12, _⟩ => ⟨S3x1x64, .f32⟩
  | .hbm, ⟨13, _⟩ => ⟨S3x1000000, .f32⟩
  | .hbm, ⟨14, _⟩ => ⟨S1x1000000, .f32⟩
  | .hbm, ⟨15, _⟩ => ⟨S1000000, .f32⟩
  | .hbm, ⟨16, _⟩ => ⟨S1000000x1, .f32⟩
  | .hbm, ⟨17, _⟩ => ⟨S1x1000000, .f32⟩
  | .hbm, ⟨18, _⟩ => ⟨S1000000, .f32⟩
  | .hbm, ⟨19, _⟩ => ⟨S1000000x1, .f32⟩
  | .hbm, ⟨20, _⟩ => ⟨S1x1000000, .f32⟩
  | .hbm, ⟨21, _⟩ => ⟨S1000000, .f32⟩
  | .hbm, ⟨22, _⟩ => ⟨S1000000x1, .f32⟩
  | .local _ .vmem, ⟨0, _⟩ => ⟨S8192x3, .f32⟩
  | .local _ .vmem, ⟨1, _⟩ => ⟨S8192x3, .f32⟩
  | .local _ .vmem, ⟨2, _⟩ => ⟨S3x3x64, .f32⟩
  | .local _ .vmem, ⟨3, _⟩ => ⟨S3x1x64, .f32⟩
  | .local _ .vmem, ⟨4, _⟩ => ⟨S3x1x64, .f32⟩
  | .local _ .vmem, ⟨5, _⟩ => ⟨S3x8192, .f32⟩
  | .local _ .vmem, ⟨6, _⟩ => ⟨S3x8192, .f32⟩
  | _, _ => ⟨S1000000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![123], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S8192x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x3x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3x1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S3x8192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  transposes_S64x3x3_S3x3x64_1_2_0 : S64x3x3.Transposes [1, 2, 0] S3x3x64
  transposes_S64x3_S3x64_1_0 : S64x3.Transposes [1, 0] S3x64
  bcast_S3x64_S3x1x64_0_2 : S3x64.BroadcastsInDim S3x1x64 (![0, 2] : Fin 2 → Fin S3x1x64.rank)
  bcast_S1x64_S1x1x64_1_2 : S1x64.BroadcastsInDim S1x1x64 (![1, 2] : Fin 2 → Fin S1x1x64.rank)
  concatenates_S1x1x64_S1x1x64_S1x1x64_S3x1x64_d0 : Shape.Concatenates [S1x1x64, S1x1x64, S1x1x64] S3x1x64 0
  inb_S8192x3_S8192x3_0_0 : ∀ a, (![0, 0] : Fin 2 → Nat) a + S8192x3.size a ≤ S8192x3.size a
  h_S8192x3 : 0 < S8192x3.numel
  inb_S3x3x64_S1x3x64_0_0_0 : ∀ a, (![0, 0, 0] : Fin 3 → Nat) a + S1x3x64.size a ≤ S3x3x64.size a
  h_S1x3x64 : 0 < S1x3x64.numel
  shapeCasts_S1x3x64_S3x64 : S1x3x64.ShapeCasts S3x64
  inb_S3x1x64_S1x1x64_0_0_0 : ∀ a, (![0, 0, 0] : Fin 3 → Nat) a + S1x1x64.size a ≤ S3x1x64.size a
  h_S1x1x64 : 0 < S1x1x64.numel
  shapeCasts_S1x1x64_S1x64 : S1x1x64.ShapeCasts S1x64
  broadcasts_S1x64_S8192x64 : S1x64.Broadcasts S8192x64
  inb_S3x3x64_S1x3x64_1_0_0 : ∀ a, (![1, 0, 0] : Fin 3 → Nat) a + S1x3x64.size a ≤ S3x3x64.size a
  inb_S3x1x64_S1x1x64_1_0_0 : ∀ a, (![1, 0, 0] : Fin 3 → Nat) a + S1x1x64.size a ≤ S3x1x64.size a
  inb_S3x3x64_S1x3x64_2_0_0 : ∀ a, (![2, 0, 0] : Fin 3 → Nat) a + S1x3x64.size a ≤ S3x3x64.size a
  inb_S3x1x64_S1x1x64_2_0_0 : ∀ a, (![2, 0, 0] : Fin 3 → Nat) a + S1x1x64.size a ≤ S3x1x64.size a
  concatenates_S1x8192_S1x8192_S1x8192_S3x8192_d0 : Shape.Concatenates [S1x8192, S1x8192, S1x8192] S3x8192 0
  inb_S3x8192_S3x8192_0_0 : ∀ a, (![0, 0] : Fin 2 → Nat) a + S3x8192.size a ≤ S3x8192.size a
  h_S3x8192 : 0 < S3x8192.numel
  slices_S3x1000000_S1x1000000_0_0 : S3x1000000.Slices ![0, 0] S1x1000000
  shapeCasts_S1x1000000_S1000000 : S1x1000000.ShapeCasts S1000000
  shapeCasts_S1000000_S1000000x1 : S1000000.ShapeCasts S1000000x1
  slices_S3x1000000_S1x1000000_1_0 : S3x1000000.Slices ![1, 0] S1x1000000
  slices_S3x1000000_S1x1000000_2_0 : S3x1000000.Slices ![2, 0] S1x1000000
  dot_S8192x3_S3x64_S8192x64_1_0_0_1_n_n_wf : DotDims.WF S8192x3 S3x64 S8192x64 [1] [0] [0] [1] [] []
  dot_S1x64_S8192x64_S1x8192_1_1_0_0_n_n_wf : DotDims.WF S1x64 S8192x64 S1x8192 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S8192x3.size a < S1000000x3.size a
  hwx0_0 : ∀ i : grid0.Coords, EltTy.bits .f32 = 32 ∨ (Rect.unit (s := S1000000x3) (fun a => cc0_transform_0 i a * S8192x3.size a) (fun a => (Pipeline.Clip.of (cc0_transform_0 i a) (S8192x3.size a) (S1000000x3.size a)).extent (S8192x3.size a)) fun a => Pipeline.Clip.inb (Pipeline.Clip.ok_of (hstart0_0 i a))).WholeWords (EltTy.packing .f32)
  hwxs0_0 : ∀ i : grid0.Coords, EltTy.bits .f32 = 32 ∨ (Rect.unit (s := S8192x3) (fun _ => 0) (fun a => (Pipeline.Clip.of (cc0_transform_0 i a) (S8192x3.size a) (S1000000x3.size a)).extent (S8192x3.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x3x64.size a ≤ S3x3x64.size a
  hwx0_1 : ∀ i : grid0.Coords, EltTy.bits .f32 = 32 ∨ (Rect.block (s := S3x3x64) S3x3x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3x1x64.size a ≤ S3x1x64.size a
  hwx0_2 : ∀ i : grid0.Coords, EltTy.bits .f32 = 32 ∨ (Rect.block (s := S3x1x64) S3x1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3x1x64.size a ≤ S3x1x64.size a
  hwx0_3 : ∀ i : grid0.Coords, EltTy.bits .f32 = 32 ∨ (Rect.block (s := S3x1x64) S3x1x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hstart0_4 : ∀ (i : grid0.Coords) a, cc0_transform_4 i a * S3x8192.size a < S3x1000000.size a
  hwx0_4 : ∀ i : grid0.Coords, EltTy.bits .f32 = 32 ∨ (Rect.unit (s := S3x1000000) (fun a => cc0_transform_4 i a * S3x8192.size a) (fun a => (Pipeline.Clip.of (cc0_transform_4 i a) (S3x8192.size a) (S3x1000000.size a)).extent (S3x8192.size a)) fun a => Pipeline.Clip.inb (Pipeline.Clip.ok_of (hstart0_4 i a))).WholeWords (EltTy.packing .f32)
  hwxs0_4 : ∀ i : grid0.Coords, EltTy.bits .f32 = 32 ∨ (Rect.unit (s := S3x8192) (fun _ => 0) (fun a => (Pipeline.Clip.of (cc0_transform_4 i a) (S3x8192.size a) (S3x1000000.size a)).extent (S3x8192.size a)) fun a => (Nat.zero_add _).trans_le (Pipeline.Clip.extent_le (Pipeline.Clip.ok_of (hstart0_4 i a)))).WholeWords (EltTy.packing .f32)

variable [Facts₀]

def dot_S8192x3_S3x64_S8192x64_1_0_0_1_n_n : DotDims S8192x3 S3x64 S8192x64 where
  lhsContracting := [1]
  rhsContracting := [0]
  lhsNonContracting := [0]
  rhsNonContracting := [1]
  lhsBatch := []
  rhsBatch := []
  wf := dot_S8192x3_S3x64_S8192x64_1_0_0_1_n_n_wf
def dot_S1x64_S8192x64_S1x8192_1_1_0_0_n_n : DotDims S1x64 S8192x64 S1x8192 where
  lhsContracting := [1]
  rhsContracting := [1]
  lhsNonContracting := [0]
  rhsNonContracting := [0]
  lhsBatch := []
  rhsBatch := []
  wf := dot_S1x64_S8192x64_S1x8192_1_1_0_0_n_n_wf

abbrev win0_0 : Pipeline.Window sig grid0 :=
  Pipeline.Window.ofSpecClip (Memref.whole main_arg0) S8192x3.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_v0) S3x3x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S3x1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S3x1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpecClip (Memref.whole main_v7) S3x8192.size cc0_transform_4 reads0_4 true false 2 stage0_4 sem0_4
    hrank0 hreads0_4 hstart0_4 nbuf0_4 (Memref.isWhole_whole _) hwx0_4 hwxs0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S1000000x3 : Shape := ⟨2, ![1000000, 3]⟩
abbrev S64x3x3 : Shape := ⟨3, ![64, 3, 3]⟩
abbrev S64x3 : Shape := ⟨2, ![64, 3]⟩
abbrev S1x64 : Shape := ⟨2, ![1, 64]⟩
abbrev S1000000x64x3 : Shape := ⟨3, ![1000000, 64, 3]⟩
abbrev S1x64x3 : Shape := ⟨3, ![1, 64, 3]⟩
abbrev S1000000x64x1 : Shape := ⟨3, ![1000000, 64, 1]⟩
abbrev S1000000x64 : Shape := ⟨2, ![1000000, 64]⟩
abbrev S64x1 : Shape := ⟨2, ![64, 1]⟩
abbrev S1000000x1 : Shape := ⟨2, ![1000000, 1]⟩

abbrev nBuf : Space → Nat
  | .hbm => 23
  | .vmem => 0
  | .smem => 0
  | _ => 0

abbrev bufTy : (tb : Table) → Fin (tcTables nBuf tb) → BufTy
  | .hbm, ⟨0, _⟩ => ⟨S1000000x3, .f32⟩
  | .hbm, ⟨1, _⟩ => ⟨S64x3x3, .f32⟩
  | .hbm, ⟨2, _⟩ => ⟨S64x3, .f32⟩
  | .hbm, ⟨3, _⟩ => ⟨S1x64, .f32⟩
  | .hbm, ⟨4, _⟩ => ⟨S1x64, .f32⟩
  | .hbm, ⟨5, _⟩ => ⟨S1x64, .f32⟩
  | .hbm, ⟨6, _⟩ => ⟨S1000000x64x3, .f32⟩
  | .hbm, ⟨7, _⟩ => ⟨S1x64x3, .f32⟩
  | .hbm, ⟨8, _⟩ => ⟨S1000000x64x3, .f32⟩
  | .hbm, ⟨9, _⟩ => ⟨S1000000x64x3, .f32⟩
  | .hbm, ⟨10, _⟩ => ⟨S1000000x64x3, .f32⟩
  | .hbm, ⟨11, _⟩ => ⟨S1000000x64x1, .f32⟩
  | .hbm, ⟨12, _⟩ => ⟨S1000000x64, .f32⟩
  | .hbm, ⟨13, _⟩ => ⟨S1000000x64x1, .f32⟩
  | .hbm, ⟨14, _⟩ => ⟨S1000000x64, .f32⟩
  | .hbm, ⟨15, _⟩ => ⟨S1000000x64x1, .f32⟩
  | .hbm, ⟨16, _⟩ => ⟨S1000000x64, .f32⟩
  | .hbm, ⟨17, _⟩ => ⟨S64x1, .f32⟩
  | .hbm, ⟨18, _⟩ => ⟨S1000000x1, .f32⟩
  | .hbm, ⟨19, _⟩ => ⟨S64x1, .f32⟩
  | .hbm, ⟨20, _⟩ => ⟨S1000000x1, .f32⟩
  | .hbm, ⟨21, _⟩ => ⟨S64x1, .f32⟩
  | .hbm, ⟨22, _⟩ => ⟨S1000000x1, .f32⟩
  | _, _ => ⟨S1000000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]

class Facts₀ : Prop where
  bcast_S64x3_S1x64x3_1_2 : S64x3.BroadcastsInDim S1x64x3 (![1, 2] : Fin 2 → Fin S1x64x3.rank)
  bcast_S1x64x3_S1000000x64x3_0_1_2 : S1x64x3.BroadcastsInDim S1000000x64x3 (![0, 1, 2] : Fin 3 → Fin S1000000x64x3.rank)
  slices_S1000000x64x3_S1000000x64x1_0_0_0 : S1000000x64x3.Slices ![0, 0, 0] S1000000x64x1
  shapeCasts_S1000000x64x1_S1000000x64 : S1000000x64x1.ShapeCasts S1000000x64
  slices_S1000000x64x3_S1000000x64x1_0_0_1 : S1000000x64x3.Slices ![0, 0, 1] S1000000x64x1
  slices_S1000000x64x3_S1000000x64x1_0_0_2 : S1000000x64x3.Slices ![0, 0, 2] S1000000x64x1
  transposes_S1x64_S64x1_1_0 : S1x64.Transposes [1, 0] S64x1
  dot_S1000000x3_S64x3x3_S1000000x64x3_1_2_0_01_n_n_wf : DotDims.WF S1000000x3 S64x3x3 S1000000x64x3 [1] [2] [0] [0, 1] [] []
  dot_S1000000x64_S64x1_S1000000x1_1_0_0_1_n_n_wf : DotDims.WF S1000000x64 S64x1 S1000000x1 [1] [0] [0] [1] [] []

variable [Facts₀]

def dot_S1000000x3_S64x3x3_S1000000x64x3_1_2_0_01_n_n : DotDims S1000000x3 S64x3x3 S1000000x64x3 where
  lhsContracting := [1]
  rhsContracting := [2]
  lhsNonContracting := [0]
  rhsNonContracting := [0, 1]
  lhsBatch := []
  rhsBatch := []
  wf := dot_S1000000x3_S64x3x3_S1000000x64x3_1_2_0_01_n_n_wf
def dot_S1000000x64_S64x1_S1000000x1_1_0_0_1_n_n : DotDims S1000000x64 S64x1 S1000000x1 where
  lhsContracting := [1]
  rhsContracting := [0]
  lhsNonContracting := [0]
  rhsNonContracting := [1]
  lhsBatch := []
  rhsBatch := []
  wf := dot_S1000000x64_S64x1_S1000000x1_1_0_0_1_n_n_wf

class Facts : Prop extends Facts₀ where

variable [Facts]
-- ==== Proof.Spec.lean ====
/-
  The three output heads as one function of the argument arrays, entry by entry, over the extended reals.

  For a sample row `p` and a head `k` (0, 1, 2), with `x : [1000000, 3]`, `W : [64, 3, 3]`, `b : [64, 3]` and the head's
  coefficient row `ck : [1, 64]`:
      head x W b ck k p = ∑ n, ck[0, n] · tanh (∑ d, x[p, d] · W[n, k, d] + b[n, k]).
  Both programs compute this number: one contracts the feature axis `d`, adds the bias, applies `tanh`, and
  contracts the layer axis `n` against the coefficients. They differ only in the order of the two factors of the
  outer product, which is commutativity of the product of extended reals (no finiteness is needed).
-/
import Idealize.ShloMosaic.PureOps.Ideal
import Idealize.ShloMosaic.Lib.ValueIdx

noncomputable section

open scoped BigOperators

namespace Cert.Spec

open Idealize.ShloMosaic Idealize.ShloMosaic.ValueIdx

/-- The pre-activation of layer `n`, channel `k`, at sample `p`: the row `x[p, :]` against `W[n, k, :]`, plus the bias. -/
def pre (x : (⟨2, ![1000000, 3]⟩ : Shape).Idx → EReal) (W : (⟨3, ![64, 3, 3]⟩ : Shape).Idx → EReal)
    (b : (⟨2, ![64, 3]⟩ : Shape).Idx → EReal) (k : Fin 3) (p : Fin 1000000) (n : Fin 64) : EReal :=
  (∑ d : Fin 3, x (ix2 p d) * W (ix3 n k d)) + b (ix2 n k)

/-- Head `k` at sample `p`: the coefficients against the activations of the 64 layers. -/
def head (x : (⟨2, ![1000000, 3]⟩ : Shape).Idx → EReal) (W : (⟨3, ![64, 3, 3]⟩ : Shape).Idx → EReal)
    (b : (⟨2, ![64, 3]⟩ : Shape).Idx → EReal) (ck : (⟨2, ![1, 64]⟩ : Shape).Idx → EReal) (k : Fin 3) (p : Fin 1000000) : EReal :=
  ∑ n : Fin 64, ck (ix2 0 n) * Ideal.tanh (pre x W b k p n)

/-- The same number with the factors of the outer product in the other order. -/
theorem head_comm (x : (⟨2, ![1000000, 3]⟩ : Shape).Idx → EReal) (W : (⟨3, ![64, 3, 3]⟩ : Shape).Idx → EReal)
    (b : (⟨2, ![64, 3]⟩ : Shape).Idx → EReal) (ck : (⟨2, ![1, 64]⟩ : Shape).Idx → EReal) (k : Fin 3) (p : Fin 1000000) :
    head x W b ck k p = ∑ n : Fin 64, Ideal.tanh (pre x W b k p n) * ck (ix2 0 n) :=
  Finset.sum_congr rfl fun _ _ => mul_comm _ _

/-- Head `k` as a column `[1000000, 1]`: what each of the three results holds. -/
def column (x : (⟨2, ![1000000, 3]⟩ : Shape).Idx → EReal) (W : (⟨3, ![64, 3, 3]⟩ : Shape).Idx → EReal)
    (b : (⟨2, ![64, 3]⟩ : Shape).Idx → EReal) (ck : (⟨2, ![1, 64]⟩ : Shape).Idx → EReal) (k : Fin 3) :
    (⟨2, ![1000000, 1]⟩ : Shape).Idx → EReal :=
  fun i => head x W b ck k (i 0)

end Cert.Spec

end
-- ==== Proof.BFrame.lean ====
/-
  The frame of `Kernel`: @main is seven host operations (two transposes, four unit-axis broadcasts and a three-way
  concatenate, which lay the parameters out as [3,3,64], [3,1,64] and [3,1,64]), one kernel region on a grid of 123
  points, and nine host operations that cut the [3,1000000] result into three columns.

  The region stages the samples `x` in blocks of 8192 rows and the result in blocks of 8192 columns; 1000000 is not a
  multiple of 8192, so the last block of each overhangs its array by 7616 positions: the fetch fills the staging buffer
  past the array's end with words nothing names, and the write-back writes only the part inside the array. The body
  loads the whole sample block, three slices of each parameter block, and stores one [3,8192] value computed from them.

  Stated here, for any float instance: the contents the region finds (`V`), that no host operation writes an argument
  (`V_main_argK`, `W_main_argK`), what the body leaves in the result's staging buffer as a function of what it
  loaded (`out0_4`, `sound_kernel`), and the proof data of the pipeline (`dats`), parametrized by the contents
  named for the result's staging buffer after each point.
-/
import proofs.«110611_j45707041964786_1_alg».proof.Proof.Gen.Kernel.Launch
import proofs.«110611_j45707041964786_1_alg».proof.Proof.Gen.Kernel.Skeleton
import proofs.«110611_j45707041964786_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered, as a valuation: the launch contents after the seven host
    operations before the region. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host operations before the region, the region, and the host operations after it: it reduces to the
    region continued by the later operations, entered at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The operations after the region touch only the pipeline's arrays and the buffers that bypass the region. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And write no array of the pipeline: each writes its own result buffer, which is no window's array. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))

/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))

/-- No host operation after the region writes `main_arg1`, and it is no array the region writes: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.nary_writes, StableHlo.reshape_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))

/-- No host operation after the region writes `main_arg2`, and it is no array the region writes: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.nary_writes, StableHlo.reshape_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))

/-- No host operation after the region writes `main_arg3`, and it is no array the region writes: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.nary_writes, StableHlo.reshape_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))

/-- No host operation after the region writes `main_arg4`, and it is no array the region writes: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.nary_writes, StableHlo.reshape_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))

/-- No host operation after the region writes `main_arg5`, and it is no array the region writes: it ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.nary_writes, StableHlo.reshape_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

/-! ## The windows' blocks -/

/-- Window `w`'s block at point `t`, read off its array as the region finds it (`V`): for the sample window at the last
    point, the part inside the array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's accesses -/

abbrev rX : Rect S8192x3 := Rect.unit (s := S8192x3) ![0, 0] S8192x3.size inb_S8192x3_S8192x3_0_0
abbrev rW0 : Rect S3x3x64 := Rect.unit (s := S3x3x64) ![0, 0, 0] S1x3x64.size inb_S3x3x64_S1x3x64_0_0_0
abbrev rW1 : Rect S3x3x64 := Rect.unit (s := S3x3x64) ![1, 0, 0] S1x3x64.size inb_S3x3x64_S1x3x64_1_0_0
abbrev rW2 : Rect S3x3x64 := Rect.unit (s := S3x3x64) ![2, 0, 0] S1x3x64.size inb_S3x3x64_S1x3x64_2_0_0
abbrev rB0 : Rect S3x1x64 := Rect.unit (s := S3x1x64) ![0, 0, 0] S1x1x64.size inb_S3x1x64_S1x1x64_0_0_0
abbrev rB1 : Rect S3x1x64 := Rect.unit (s := S3x1x64) ![1, 0, 0] S1x1x64.size inb_S3x1x64_S1x1x64_1_0_0
abbrev rB2 : Rect S3x1x64 := Rect.unit (s := S3x1x64) ![2, 0, 0] S1x1x64.size inb_S3x1x64_S1x1x64_2_0_0
abbrev rO : Rect S3x8192 := Rect.unit (s := S3x8192) ![0, 0] S3x8192.size inb_S3x8192_S3x8192_0_0

/-! ## What the body leaves in the result's staging buffer -/

/-- The value the body stores, from the contents of the four input staging buffers: the three heads' rows, each from
    the whole sample block and the head's slices of the weights, the biases and the coefficients. -/
def stored (x0 : Vec F S8192x3 .f32) (x1 : Vec F S3x3x64 .f32) (x2 x3 : Vec F S3x1x64 .f32) : Vec F S3x8192 .f32 :=
  k0_pay1 (View.ld x0 rX)
    (k0_pay2 (View.ld x0 rX) (View.ld x1 rW0) (View.ld x2 rB0) (View.ld x3 rB0))
    (k0_pay3 (View.ld x0 rX) (View.ld x1 rW1) (View.ld x2 rB1) (View.ld x3 rB1))
    (k0_pay4 (View.ld x1 rW2)) (k0_pay5 (View.ld x2 rB2)) (View.ld x3 rB2)

/-- The result's staging buffer after the body: its one store, which covers the buffer. -/
def out0_4 (x0 : Vec F S8192x3 .f32) (x1 : Vec F S3x3x64 .f32) (x2 x3 : Vec F S3x1x64 .f32) : Vec F S3x8192 .f32 :=
  View.canon [⟨rO, stored x0 x1 x2 x3⟩]

/-- The store's rectangle is the whole buffer. -/
theorem cover0_4 (p0 : Vec F S3x8192 .f32) (y : S3x8192.Idx) :
    ∃ pc ∈ ([⟨rO, p0⟩] : List (View.Piece (Elt F) S3x8192 .f32)), y ∈ pc.1.set :=
  View.cover_of_tiled [⟨rO, p0⟩] S3x8192.size (by rfl) y

/-! ## The body's triple -/

set_option maxHeartbeats 1000000 in
/-- The kernel body on whole staging memrefs, the inputs' at contents `x0 … x3` and the result's at anything, runs to
    the continuation holding the inputs' as they were and the result's at `out0_4` of them. -/
theorem sound_kernel (c : Dev nD) (E : Set ℕ) (i : grid0.Coords)
    (arg1 : Memref sig .tc .vmem S8192x3 .f32) (harg1 : arg1.IsWhole) (arg2 : Memref sig .tc .vmem S3x3x64 .f32) (harg2 : arg2.IsWhole)
    (arg3 : Memref sig .tc .vmem S3x1x64 .f32) (harg3 : arg3.IsWhole) (arg4 : Memref sig .tc .vmem S3x1x64 .f32) (harg4 : arg4.IsWhole)
    (arg5 : Memref sig .tc .vmem S3x8192 .f32) (harg5 : arg5.IsWhole)
    (x0 : Vec F S8192x3 .f32) (x1 : Vec F S3x3x64 .f32) (x2 x3 : Vec F S3x1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out0_4 x0 x1 x2 x3)) -∗ K ⟨⟩))
      ⊢ wp frame (wpE (defs₀ (F := F)) Variants.none c none) E (cc0__kernel i arg1 harg1 arg2 harg2 arg3 harg3 arg4 harg4 arg5 harg5) K := by
  simp only [cc0__kernel_eq_skeleton]; unfold cc0__kernel_skel
  simp only [k0_part1_eq_skeleton]
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _)

/-! ## The pipeline's proof data -/

/-- The proof data of the pipeline on core `c`: the arrays as the region finds them (`V`); after the body at point `t`
    the sample window's buffer at its block's part inside the array filled out with the zero word, each parameter
    window's buffer at its block, and the result's at `o4 c t`; the invariant the scoped rest and the generator
    register, untouched; nothing owed; full shares. -/
def dats (o4 : (c : Dev nD) → Fin cfg0.N → S3x8192.Idx → Elt F .f32) (_ : Fin 1) (c : Dev nD) : Dat τ (Elt F) Unit ℕ (UR sig nD τ) ℕ cfg0 c where
  A w := V m c (Pipeline.arrRef spec0 w)
  after w t := match w with
    | ⟨0, _⟩ => win0_0.fill (grid0.coords t) (fun _ => Scalar.ofBits .f32 0#32) (iblk m c 0 t)
    | ⟨1, _⟩ => iblk m c 1 t
    | ⟨2, _⟩ => iblk m c 2 t
    | ⟨3, _⟩ => iblk m c 3 t
    | ⟨4, _⟩ => o4 c t
  Φ _ := Pipeline.ΦA spec0 c
  q _ := fullShare
  owed _ := 0

variable (o4 : (c : Dev nD) → Fin cfg0.N → S3x8192.Idx → Elt F .f32)

/-- The proof data's arrays are the region-entry contents. -/
theorem A_eq (c : Dev nD) (w : Fin cfg0.W) : (dats m o4 0 c).A w = V m c (Pipeline.arrRef spec0 w) := by
  dsimp only [dats]

theorem after0_0 (c : Dev nD) (t : Fin cfg0.N) : (dats m o4 0 c).after 0 t
    = win0_0.fill (grid0.coords t) (fun _ => Scalar.ofBits .f32 0#32) (iblk m c 0 t) := by dsimp only [dats]
theorem after0_1 (c : Dev nD) (t : Fin cfg0.N) : (dats m o4 0 c).after 1 t = iblk m c 1 t := by dsimp only [dats]
theorem after0_2 (c : Dev nD) (t : Fin cfg0.N) : (dats m o4 0 c).after 2 t = iblk m c 2 t := by dsimp only [dats]
theorem after0_3 (c : Dev nD) (t : Fin cfg0.N) : (dats m o4 0 c).after 3 t = iblk m c 3 t := by dsimp only [dats]
theorem after0_4 (c : Dev nD) (t : Fin cfg0.N) : (dats m o4 0 c).after 4 t = o4 c t := by dsimp only [dats]

/-- The sample window is fetched at every point: its buffer holds the block's part inside the array, and past it
    whatever the fetch left (`d`). -/
theorem before0_0 (c : Dev nD) (t : Fin cfg0.N) (d) :
    (dats m o4 0 c).before 0 t d = win0_0.fill (grid0.coords t) d (iblk m c 0 t) := by
  unfold Dat.before; rw [if_pos (fetch0_0 t)]; rfl

/-- Each parameter window's buffer holds its block at every point, fetched there or not: the body leaves it in place
    and its block index never moves. -/
theorem before0_1 (c : Dev nD) (t : Fin cfg0.N) (d) : (dats m o4 0 c).before 1 t d = iblk m c 1 t :=
  ((dats m o4 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m o4 0 c).before 2 t d = iblk m c 2 t :=
  ((dats m o4 0 c).before_in_eq_fetched 2 rfl (fun _ => rfl) (fun _ _ _ => rfl)
    (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m o4 0 c).before 3 t d = iblk m c 3 t :=
  ((dats m o4 0 c).before_in_eq_fetched 3 rfl (fun _ => rfl) (fun _ _ _ => rfl)
    (fun t => by rw [after0_3]; unfold Dat.blockOf iblk; rw [A_eq]; try rfl) t d).trans
    (by unfold Dat.fetched Dat.blockOf iblk; rw [A_eq]; try rfl)

/-- The result window is never fetched. -/
theorem fetch0_4 : ∀ t : Fin cfg0.N, (cfg0.win 4).fetch t = false :=
  (by decide +kernel : ∀ t : Fin grid0.N, win0_4.fetch t = false)

/-- The result's buffer, written back at every point, holds nothing named when the body starts. -/
theorem before0_4 (c : Dev nD) (t : Fin cfg0.N) (d) : (dats m o4 0 c).before 4 t d = d := by
  unfold Dat.before
  rw [if_neg (by rw [fetch0_4 t]; exact Bool.false_ne_true)]
  by_cases ht : t.val = 0
  · rw [if_pos ht]
  · rw [if_neg ht]; exact if_pos (flush0_4 _)

/-! ## The body obligation, the result window's contents not named -/

/-- The result window is the one window whose staging contents are not named here: nothing this module claims reads
    them (the claim is that the arguments end unchanged). -/
def forgets0 : Fin 5 → Bool := fun | 0 => false | 1 => false | 2 => false | 3 => false | 4 => true | ⟨_ + 5, h⟩ => absurd h (Nat.not_lt.2 (Nat.le_add_left _ _))

/-- The body at any point, the result's buffer handed over at anything and taken back at anything. -/
theorem body_obligation_fgt (c : Dev nD) :
    BodyObligationLoose (dats m o4 0 c) (defs₀ (F := F)) Variants.none () Set.univ forgets0 := fun t => by
  rw [bigSep_W0, bigSep_W0]
  simp only [forgets0]
  rw [show (dats m o4 0 c).Φ t.succ = (dats m o4 0 c).Φ t.castSucc from rfl,
    show (dats m o4 0 c).owesAt () t.succ = (dats m o4 0 c).owesAt () t.castSucc from rfl]
  iintro ⟨HΦ, Ho, ⟨%d0, H0⟩, ⟨%d1, H1⟩, ⟨%d2, H2⟩, ⟨%d3, H3⟩, ⟨%d4, H4⟩⟩
  rw [before0_0 m o4 c t d0, before0_1 m o4 c t d1, before0_2 m o4 c t d2, before0_3 m o4 c t d3]
  iapply (sound_kernel (F := F) c Set.univ (grid0.coords t) (st0_0 t) _ (st0_1 t) _ (st0_2 t) _ (st0_3 t) _ (st0_4 t) _
    (win0_0.fill (grid0.coords t) d0 (iblk m c 0 t)) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  have hx : win0_0.cut (grid0.coords t) ((dats m o4 0 c).after 0 t) = iblk m c 0 t := by
    rw [after0_0]; exact win0_0.cut_fill _ _ _
  isplitl [H0]
  · iexists d0
    change _ ⊢ owns (c : Thread nD τ) (st0_0 t) fullShare (win0_0.fill (grid0.coords t) d0 (win0_0.cut (grid0.coords t) ((dats m o4 0 c).after 0 t)))
    rw [hx]; try iexact H0
  isplitl [H1]
  · rw [after0_1]; try iexact H1
  isplitl [H2]
  · rw [after0_2]; try iexact H2
  isplitl [H3]
  · rw [after0_3]; try iexact H3
  · iexists _; iexact H4

/-! ## The run and the frame -/

/-- The buffers the operations after the region write. -/
def tailWrites : Finset (Ref sig .tc) := {main_v8, main_v9, main_v10, main_v11, main_v12, main_v13, main_v14, main_v15, main_v16}

theorem sfx_T : ∀ ops ∈ ([hostOps1] : List (List (HloOp τ sig (Elt F)))), ∀ op ∈ ops,
    ∀ b : Ref sig .tc, Proc.devRef .tc b ∈ op.writes → b ∈ tailWrites := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl
    all_goals
      intro b hb
      simp only [StableHlo.unary_writes, StableHlo.reshape_writes, Finset.mem_singleton] at hb
      obtain rfl := Proc.devRef_injective _ hb
      decide

set_option backward.isDefEq.respectTransparency.types false in
/-- For any float values, from any memory with zero counters: every weakly fair execution of @main terminates, every
    input array of the pipeline ends as the region found it and every unscoped buffer that no later operation writes
    ends at its region-entry contents; nothing is said of the result array. -/
theorem run_main_fgt : θ_run defs (onTc (τ := τ) (main (F := F))) (s₀ m ρ)
    (Pipeline.RDat.FramePostR (cfgs 0) (fun c => (dats m o4 0 c).toRForget forgets0) tailWrites (V m)) :=
  Pipeline.RDat.θ_run_frame_around_T cfgs (0 : Fin 1) launch0 defs₀ Variants.none (fun c => (dats m o4 0 c).toRForget forgets0) tailWrites m ρ main
    (hbody := fun c => (body_obligation_fgt m o4 c).toRForget) (hshare := fun c => ((dats m o4 0 c).toRForget forgets0).share_full fun _ => rfl)
    (howed := fun _ _ => rfl) (V₀ := V0 m) (opss := [hostOps1]) (hsub := sfx_sub) (hfresh := sfx_fresh) (hkeep := sfx_keeps) (hT := sfx_T)
    (hmain := hmain m Variants.none) (hA := A_eq m o4) (hΦ := fun _ _ => rfl)

/-- The frame: the sample array is an input of the pipeline, never written; the five parameter arrays bypass the region
    and no host operation writes them. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(Eq.mp (congrFun (((dats m (fun _ _ _ => Scalar.ofBits .f32 0#32) 0 c).toRForget forgets0).ArrAt_in 0 rfl _) _) ((h c).1 0)).trans ((A_eq m (fun _ _ _ => Scalar.ofBits .f32 0#32) c 0).trans (V_main_arg0 m c)),
      ((h c).2 main_arg1 (Finset.mem_sdiff.mpr ⟨Pipeline.mem_restRefs_of main_arg1 (by decide) (by decide), by decide⟩)).trans (V_main_arg1 m c),
      ((h c).2 main_arg2 (Finset.mem_sdiff.mpr ⟨Pipeline.mem_restRefs_of main_arg2 (by decide) (by decide), by decide⟩)).trans (V_main_arg2 m c),
      ((h c).2 main_arg3 (Finset.mem_sdiff.mpr ⟨Pipeline.mem_restRefs_of main_arg3 (by decide) (by decide), by decide⟩)).trans (V_main_arg3 m c),
      ((h c).2 main_arg4 (Finset.mem_sdiff.mpr ⟨Pipeline.mem_restRefs_of main_arg4 (by decide) (by decide), by decide⟩)).trans (V_main_arg4 m c),
      ((h c).2 main_arg5 (Finset.mem_sdiff.mpr ⟨Pipeline.mem_restRefs_of main_arg5 (by decide) (by decide), by decide⟩)).trans (V_main_arg5 m c)⟩)
    (run_main_fgt m ρ (fun _ _ _ => Scalar.ofBits .f32 0#32))

end Cert.Kernel.Hand

end
-- ==== Proof.KFrame.lean ====
/-
  The frame of `KernelIdeal`: @main is seven host operations (two transposes, four unit-axis broadcasts and a three-way
  concatenate, which lay the parameters out as [3,3,64], [3,1,64] and [3,1,64]), one kernel region on a grid of 123
  points, and nine host operations that cut the [3,1000000] result into three columns.

  The region stages the samples `x` in blocks of 8192 rows and the result in blocks of 8192 columns; 1000000 is not a
  multiple of 8192, so the last block of each overhangs its array by 7616 positions: the fetch fills the staging buffer
  past the array's end with words nothing names, and the write-back writes only the part inside the array. The body
  loads the whole sample block, three slices of each parameter block, and stores one [3,8192] value computed from them.

  Stated here, for any float instance: the contents the region finds (`V`), that no host operation writes an argument
  (`V_main_argK`, `W_main_argK`), what the body leaves in the result's staging buffer as a function of what it
  loaded (`out0_4`, `sound_kernel`), and the proof data of the pipeline (`dats`), parametrized by the contents
  named for the result's staging buffer after each point.
-/
import proofs.«110611_j45707041964786_1_alg».proof.Proof.Gen.KernelIdeal.Launch
import proofs.«110611_j45707041964786_1_alg».proof.Proof.Gen.KernelIdeal.Skeleton
import proofs.«110611_j45707041964786_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered, as a valuation: the launch contents after the seven host
    operations before the region. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host operations before the region, the region, and the host operations after it: it reduces to the
    region continued by the later operations, entered at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The operations after the region touch only the pipeline's arrays and the buffers that bypass the region. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And write no array of the pipeline: each writes its own result buffer, which is no window's array. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))

/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))

/-- No host operation after the region writes `main_arg1`, and it is no array the region writes: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.nary_writes, StableHlo.reshape_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))

/-- No host operation after the region writes `main_arg2`, and it is no array the region writes: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.nary_writes, StableHlo.reshape_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))

/-- No host operation after the region writes `main_arg3`, and it is no array the region writes: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.nary_writes, StableHlo.reshape_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))

/-- No host operation after the region writes `main_arg4`, and it is no array the region writes: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.nary_writes, StableHlo.reshape_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))

/-- No host operation after the region writes `main_arg5`, and it is no array the region writes: it ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.nary_writes, StableHlo.reshape_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

/-! ## The windows' blocks -/

/-- Window `w`'s block at point `t`, read off its array as the region finds it (`V`): for the sample window at the last
    point, the part inside the array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's accesses -/

abbrev rX : Rect S8192x3 := Rect.unit (s := S8192x3) ![0, 0] S8192x3.size inb_S8192x3_S8192x3_0_0
abbrev rW0 : Rect S3x3x64 := Rect.unit (s := S3x3x64) ![0, 0, 0] S1x3x64.size inb_S3x3x64_S1x3x64_0_0_0
abbrev rW1 : Rect S3x3x64 := Rect.unit (s := S3x3x64) ![1, 0, 0] S1x3x64.size inb_S3x3x64_S1x3x64_1_0_0
abbrev rW2 : Rect S3x3x64 := Rect.unit (s := S3x3x64) ![2, 0, 0] S1x3x64.size inb_S3x3x64_S1x3x64_2_0_0
abbrev rB0 : Rect S3x1x64 := Rect.unit (s := S3x1x64) ![0, 0, 0] S1x1x64.size inb_S3x1x64_S1x1x64_0_0_0
abbrev rB1 : Rect S3x1x64 := Rect.unit (s := S3x1x64) ![1, 0, 0] S1x1x64.size inb_S3x1x64_S1x1x64_1_0_0
abbrev rB2 : Rect S3x1x64 := Rect.unit (s := S3x1x64) ![2, 0, 0] S1x1x64.size inb_S3x1x64_S1x1x64_2_0_0
abbrev rO : Rect S3x8192 := Rect.unit (s := S3x8192) ![0, 0] S3x8192.size inb_S3x8192_S3x8192_0_0

/-! ## What the body leaves in the result's staging buffer -/

/-- The value the body stores, from the contents of the four input staging buffers: the three heads' rows, each from
    the whole sample block and the head's slices of the weights, the biases and the coefficients. -/
def stored (x0 : Vec F S8192x3 .f32) (x1 : Vec F S3x3x64 .f32) (x2 x3 : Vec F S3x1x64 .f32) : Vec F S3x8192 .f32 :=
  k0_pay1 (View.ld x0 rX)
    (k0_pay2 (View.ld x0 rX) (View.ld x1 rW0) (View.ld x2 rB0) (View.ld x3 rB0))
    (k0_pay3 (View.ld x0 rX) (View.ld x1 rW1) (View.ld x2 rB1) (View.ld x3 rB1))
    (k0_pay4 (View.ld x1 rW2)) (k0_pay5 (View.ld x2 rB2)) (View.ld x3 rB2)

/-- The result's staging buffer after the body: its one store, which covers the buffer. -/
def out0_4 (x0 : Vec F S8192x3 .f32) (x1 : Vec F S3x3x64 .f32) (x2 x3 : Vec F S3x1x64 .f32) : Vec F S3x8192 .f32 :=
  View.canon [⟨rO, stored x0 x1 x2 x3⟩]

/-- The store's rectangle is the whole buffer. -/
theorem cover0_4 (p0 : Vec F S3x8192 .f32) (y : S3x8192.Idx) :
    ∃ pc ∈ ([⟨rO, p0⟩] : List (View.Piece (Elt F) S3x8192 .f32)), y ∈ pc.1.set :=
  View.cover_of_tiled [⟨rO, p0⟩] S3x8192.size (by rfl) y

/-! ## The body's triple -/

set_option maxHeartbeats 1000000 in
/-- The kernel body on whole staging memrefs, the inputs' at contents `x0 … x3` and the result's at anything, runs to
    the continuation holding the inputs' as they were and the result's at `out0_4` of them. -/
theorem sound_kernel (c : Dev nD) (E : Set ℕ) (i : grid0.Coords)
    (arg1 : Memref sig .tc .vmem S8192x3 .f32) (harg1 : arg1.IsWhole) (arg2 : Memref sig .tc .vmem S3x3x64 .f32) (harg2 : arg2.IsWhole)
    (arg3 : Memref sig .tc .vmem S3x1x64 .f32) (harg3 : arg3.IsWhole) (arg4 : Memref sig .tc .vmem S3x1x64 .f32) (harg4 : arg4.IsWhole)
    (arg5 : Memref sig .tc .vmem S3x8192 .f32) (harg5 : arg5.IsWhole)
    (x0 : Vec F S8192x3 .f32) (x1 : Vec F S3x3x64 .f32) (x2 x3 : Vec F S3x1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out0_4 x0 x1 x2 x3)) -∗ K ⟨⟩))
      ⊢ wp frame (wpE (defs₀ (F := F)) Variants.none c none) E (cc0__kernel i arg1 harg1 arg2 harg2 arg3 harg3 arg4 harg4 arg5 harg5) K := by
  simp only [cc0__kernel_eq_skeleton]; unfold cc0__kernel_skel
  simp only [k0_part1_eq_skeleton]
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _)

/-! ## The pipeline's proof data -/

/-- The proof data of the pipeline on core `c`: the arrays as the region finds them (`V`); after the body at point `t`
    the sample window's buffer at its block's part inside the array filled out with the zero word, each parameter
    window's buffer at its block, and the result's at `o4 c t`; the invariant the scoped rest and the generator
    register, untouched; nothing owed; full shares. -/
def dats (o4 : (c : Dev nD) → Fin cfg0.N → S3x8192.Idx → Elt F .f32) (_ : Fin 1) (c : Dev nD) : Dat τ (Elt F) Unit ℕ (UR sig nD τ) ℕ cfg0 c where
  A w := V m c (Pipeline.arrRef spec0 w)
  after w t := match w with
    | ⟨0, _⟩ => win0_0.fill (grid0.coords t) (fun _ => Scalar.ofBits .f32 0#32) (iblk m c 0 t)
    | ⟨1, _⟩ => iblk m c 1 t
    | ⟨2, _⟩ => iblk m c 2 t
    | ⟨3, _⟩ => iblk m c 3 t
    | ⟨4, _⟩ => o4 c t
  Φ _ := Pipeline.ΦA spec0 c
  q _ := fullShare
  owed _ := 0

variable (o4 : (c : Dev nD) → Fin cfg0.N → S3x8192.Idx → Elt F .f32)

/-- The proof data's arrays are the region-entry contents. -/
theorem A_eq (c : Dev nD) (w : Fin cfg0.W) : (dats m o4 0 c).A w = V m c (Pipeline.arrRef spec0 w) := by
  dsimp only [dats]

theorem after0_0 (c : Dev nD) (t : Fin cfg0.N) : (dats m o4 0 c).after 0 t
    = win0_0.fill (grid0.coords t) (fun _ => Scalar.ofBits .f32 0#32) (iblk m c 0 t) := by dsimp only [dats]
theorem after0_1 (c : Dev nD) (t : Fin cfg0.N) : (dats m o4 0 c).after 1 t = iblk m c 1 t := by dsimp only [dats]
theorem after0_2 (c : Dev nD) (t : Fin cfg0.N) : (dats m o4 0 c).after 2 t = iblk m c 2 t := by dsimp only [dats]
theorem after0_3 (c : Dev nD) (t : Fin cfg0.N) : (dats m o4 0 c).after 3 t = iblk m c 3 t := by dsimp only [dats]
theorem after0_4 (c : Dev nD) (t : Fin cfg0.N) : (dats m o4 0 c).after 4 t = o4 c t := by dsimp only [dats]

/-- The sample window is fetched at every point: its buffer holds the block's part inside the array, and past it
    whatever the fetch left (`d`). -/
theorem before0_0 (c : Dev nD) (t : Fin cfg0.N) (d) :
    (dats m o4 0 c).before 0 t d = win0_0.fill (grid0.coords t) d (iblk m c 0 t) := by
  unfold Dat.before; rw [if_pos (fetch0_0 t)]; rfl

/-- Each parameter window's buffer holds its block at every point, fetched there or not: the body leaves it in place
    and its block index never moves. -/
theorem before0_1 (c : Dev nD) (t : Fin cfg0.N) (d) : (dats m o4 0 c).before 1 t d = iblk m c 1 t :=
  ((dats m o4 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m o4 0 c).before 2 t d = iblk m c 2 t :=
  ((dats m o4 0 c).before_in_eq_fetched 2 rfl (fun _ => rfl) (fun _ _ _ => rfl)
    (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m o4 0 c).before 3 t d = iblk m c 3 t :=
  ((dats m o4 0 c).before_in_eq_fetched 3 rfl (fun _ => rfl) (fun _ _ _ => rfl)
    (fun t => by rw [after0_3]; unfold Dat.blockOf iblk; rw [A_eq]; try rfl) t d).trans
    (by unfold Dat.fetched Dat.blockOf iblk; rw [A_eq]; try rfl)

/-- The result window is never fetched. -/
theorem fetch0_4 : ∀ t : Fin cfg0.N, (cfg0.win 4).fetch t = false :=
  (by decide +kernel : ∀ t : Fin grid0.N, win0_4.fetch t = false)

/-- The result's buffer, written back at every point, holds nothing named when the body starts. -/
theorem before0_4 (c : Dev nD) (t : Fin cfg0.N) (d) : (dats m o4 0 c).before 4 t d = d := by
  unfold Dat.before
  rw [if_neg (by rw [fetch0_4 t]; exact Bool.false_ne_true)]
  by_cases ht : t.val = 0
  · rw [if_pos ht]
  · rw [if_neg ht]; exact if_pos (flush0_4 _)

/-! ## The body obligation -/

/-- The body at any point: the sample window's buffer holds its block filled out with whatever the fetch left, the
    parameter windows' theirs, the result's anything; the body leaves the inputs as they were and the result's buffer
    at `out0_4` of them, which on the part written back is `o4 c t`'s (`hcut`) — all the obligation of a window whose
    blocks overhang its array states. -/
theorem body_obligation
    (hcut : ∀ (c : Dev nD) (t : Fin cfg0.N) (d0 : S8192x3.Idx → Elt F .f32),
      win0_4.cut (grid0.coords t) (out0_4 (win0_0.fill (grid0.coords t) d0 (iblk m c 0 t)) (iblk m c 1 t) (iblk m c 2 t) (iblk m c 3 t))
        = win0_4.cut (grid0.coords t) (o4 c t))
    (c : Dev nD) : BodyObligationLoose (dats m o4 0 c) (defs₀ (F := F)) Variants.none () Set.univ := fun t => by
  rw [bigSep_W0, bigSep_W0]
  simp only
  rw [show (dats m o4 0 c).Φ t.succ = (dats m o4 0 c).Φ t.castSucc from rfl,
    show (dats m o4 0 c).owesAt () t.succ = (dats m o4 0 c).owesAt () t.castSucc from rfl]
  iintro ⟨HΦ, Ho, ⟨%d0, H0⟩, ⟨%d1, H1⟩, ⟨%d2, H2⟩, ⟨%d3, H3⟩, ⟨%d4, H4⟩⟩
  rw [before0_0 m o4 c t d0, before0_1 m o4 c t d1, before0_2 m o4 c t d2, before0_3 m o4 c t d3, before0_4 m o4 c t d4]
  iapply (sound_kernel (F := F) c Set.univ (grid0.coords t) (st0_0 t) _ (st0_1 t) _ (st0_2 t) _ (st0_3 t) _ (st0_4 t) _
    (win0_0.fill (grid0.coords t) d0 (iblk m c 0 t)) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  have hx : win0_0.cut (grid0.coords t) ((dats m o4 0 c).after 0 t) = iblk m c 0 t := by
    rw [after0_0]; exact win0_0.cut_fill _ _ _
  have ho : win0_4.fill (grid0.coords t)
      (out0_4 (win0_0.fill (grid0.coords t) d0 (iblk m c 0 t)) (iblk m c 1 t) (iblk m c 2 t) (iblk m c 3 t))
      (win0_4.cut (grid0.coords t) ((dats m o4 0 c).after 4 t))
      = out0_4 (win0_0.fill (grid0.coords t) d0 (iblk m c 0 t)) (iblk m c 1 t) (iblk m c 2 t) (iblk m c 3 t) := by
    rw [after0_4]; exact win0_4.fill_congr_cut _ (hcut c t d0)
  isplitl [H0]
  · iexists d0
    change _ ⊢ owns (c : Thread nD τ) (st0_0 t) fullShare (win0_0.fill (grid0.coords t) d0 (win0_0.cut (grid0.coords t) ((dats m o4 0 c).after 0 t)))
    rw [hx]; try iexact H0
  isplitl [H1]
  · rw [after0_1]; try iexact H1
  isplitl [H2]
  · rw [after0_2]; try iexact H2
  isplitl [H3]
  · rw [after0_3]; try iexact H3
  · iexists (out0_4 (win0_0.fill (grid0.coords t) d0 (iblk m c 0 t)) (iblk m c 1 t) (iblk m c 2 t) (iblk m c 3 t))
    change _ ⊢ owns (c : Thread nD τ) (st0_4 t) fullShare (win0_4.fill (grid0.coords t) _ (win0_4.cut (grid0.coords t) ((dats m o4 0 c).after 4 t)))
    rw [ho]; try iexact H4

/-! ## The run and the frame -/

set_option backward.isDefEq.respectTransparency.types false in
/-- For any float values, from any memory with zero counters: every weakly fair execution of @main terminates, and every
    final state has every array of the pipeline at what the write-backs computed from the proof data leave and every
    other unscoped buffer as the operations after the region leave it. -/
theorem run_main
    (hcut : ∀ (c : Dev nD) (t : Fin cfg0.N) (d0 : S8192x3.Idx → Elt F .f32),
      win0_4.cut (grid0.coords t) (out0_4 (win0_0.fill (grid0.coords t) d0 (iblk m c 0 t)) (iblk m c 1 t) (iblk m c 2 t) (iblk m c 3 t))
        = win0_4.cut (grid0.coords t) (o4 c t)) :
    θ_run defs (onTc (τ := τ) (main (F := F))) (s₀ m ρ)
      (Pipeline.FramePost cfgs (dats m o4) 0 (Pipeline.afterTail₀ cfgs (dats m o4) 0 (V0 m) [hostOps1])) :=
  Pipeline.θ_run_frame_around cfgs (dats m o4) (0 : Fin 1) launch0 defs₀ Variants.none m ρ main
    (hbody := fun c => body_obligation m o4 hcut c) (hshare := fun c => (dats m o4 0 c).share_full fun _ => rfl)
    (howed := fun _ _ => rfl) (V₀ := V0 m) (opss := [hostOps1]) (hsub := sfx_sub) (hfresh := sfx_fresh) (hkeep := sfx_keeps)
    (hmain := hmain m Variants.none) (hA := A_eq m o4) (hΦ := fun _ _ => rfl)

/-- The frame from the run: the sample array is an input of the pipeline, never written; the five parameter arrays
    bypass the region and no host operation writes them. -/
theorem frame_of
    (h : θ_run defs (onTc (τ := τ) (main (F := F))) (s₀ m ρ)
      (Pipeline.FramePost cfgs (dats m o4) 0 (Pipeline.afterTail₀ cfgs (dats m o4) 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).1 0).trans (((dats m o4 0 c).arrAt_in 0 rfl _).trans ((A_eq m o4 c 0).trans (V_main_arg0 m c))),
      ((h c).2 main_arg1 (Pipeline.mem_restRefs_of main_arg1 (by decide) (by decide))).trans (W_main_arg1 m (dats m o4) c),
      ((h c).2 main_arg2 (Pipeline.mem_restRefs_of main_arg2 (by decide) (by decide))).trans (W_main_arg2 m (dats m o4) c),
      ((h c).2 main_arg3 (Pipeline.mem_restRefs_of main_arg3 (by decide) (by decide))).trans (W_main_arg3 m (dats m o4) c),
      ((h c).2 main_arg4 (Pipeline.mem_restRefs_of main_arg4 (by decide) (by decide))).trans (W_main_arg4 m (dats m o4) c),
      ((h c).2 main_arg5 (Pipeline.mem_restRefs_of main_arg5 (by decide) (by decide))).trans (W_main_arg5 m (dats m o4) c)⟩) h

end Cert.KernelIdeal.Hand

end
-- ==== Proof.BodyValue.lean ====
/-
  What the kernel body stores, entry by entry, over the extended reals.

  The body reads a block x : [8192, 3] and, per head k = 0, 1, 2, a weight slice w : [1, 3, 64], a bias slice
  b : [1, 1, 64] and a coefficient slice c : [1, 1, 64]. It stores the [3, 8192] value whose row k at column p is
      ∑ n, c[0, 0, n] · tanh (∑ d, x[p, d] · w[0, d, n] + b[0, 0, n]).
  Each row is a product [8192, 3] × [3, 64] into a zero accumulator, plus the bias row broadcast down the 8192 rows,
  through tanh, then the coefficient row [1, 64] against the [8192, 64] activations contracting the second axis of
  both, into a zero accumulator; the three rows are concatenated along axis 0.
-/
import proofs.«110611_j45707041964786_1_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.BodyValue

open Cert.KernelIdeal Cert.KernelIdeal.Gen Idealize.ShloMosaic Idealize.ShloMosaic.ValueIdx

/-! ## The two products at an index

The first product is [8192, 3] × [3, 64], contracting axis 1 of the left operand with axis 0 of the right; the second
is [1, 64] × [8192, 64], contracting axis 1 of both. For each, the operand indices at an output index and a
contraction position are computed coordinate by coordinate, and the sum over the one-axis contraction shape is
re-indexed over the axis' extent. -/

theorem d1_lhs0 (i : S8192x64.Idx) (q : dot_S8192x3_S3x64_S8192x64_1_0_0_1_n_n.contr.Idx) : (dot_S8192x3_S3x64_S8192x64_1_0_0_1_n_n.lhsIdx i q 0).val = (i 0).val := by
  unfold DotDims.lhsIdx
  rw [dif_neg (show ¬(0 : Fin S8192x3.rank) ∈ dot_S8192x3_S3x64_S8192x64_1_0_0_1_n_n.lhsBatch by decide), dif_pos (show (0 : Fin S8192x3.rank) ∈ dot_S8192x3_S3x64_S8192x64_1_0_0_1_n_n.lhsNonContracting by decide)]
  rfl
theorem d1_lhs1 (i : S8192x64.Idx) (q : dot_S8192x3_S3x64_S8192x64_1_0_0_1_n_n.contr.Idx) : (dot_S8192x3_S3x64_S8192x64_1_0_0_1_n_n.lhsIdx i q 1).val = (q ⟨0, by decide⟩).val :=
  dot_S8192x3_S3x64_S8192x64_1_0_0_1_n_n.lhsIdx_val_of_single rfl i q
theorem d1_rhs0 (i : S8192x64.Idx) (q : dot_S8192x3_S3x64_S8192x64_1_0_0_1_n_n.contr.Idx) : (dot_S8192x3_S3x64_S8192x64_1_0_0_1_n_n.rhsIdx i q 0).val = (q ⟨0, by decide⟩).val :=
  dot_S8192x3_S3x64_S8192x64_1_0_0_1_n_n.rhsIdx_val_of_single rfl i q
theorem d1_rhs1 (i : S8192x64.Idx) (q : dot_S8192x3_S3x64_S8192x64_1_0_0_1_n_n.contr.Idx) : (dot_S8192x3_S3x64_S8192x64_1_0_0_1_n_n.rhsIdx i q 1).val = (i 1).val := by
  unfold DotDims.rhsIdx
  rw [dif_neg (show ¬(1 : Fin S3x64.rank) ∈ dot_S8192x3_S3x64_S8192x64_1_0_0_1_n_n.rhsBatch by decide), dif_pos (show (1 : Fin S3x64.rank) ∈ dot_S8192x3_S3x64_S8192x64_1_0_0_1_n_n.rhsNonContracting by decide)]
  rfl

/-- The first product into a zero accumulator at (p, n): the row x[p, :] against the column w[:, n]. -/
theorem matmul1_apply (x : FVec Ideal S8192x3 .f32) (w : FVec Ideal S3x64 .f32) (p : Fin 8192) (n : Fin 64) :
    matmul dot_S8192x3_S3x64_S8192x64_1_0_0_1_n_n none x w (constant S8192x64 .f32 0x00000000#32) (ix2 p n) = ∑ d : Fin 3, x (ix2 p d) * w (ix2 d n) := by
  refine (Ideal.matmul_constant_zero_apply dot_S8192x3_S3x64_S8192x64_1_0_0_1_n_n none x w (ix2 p n)).trans ?_
  rw [← Equiv.sum_comp (contrEquiv1 dot_S8192x3_S3x64_S8192x64_1_0_0_1_n_n 3 rfl rfl).symm]
  refine Finset.sum_congr rfl fun d _ => ?_
  have hk := contrEquiv1_symm_val dot_S8192x3_S3x64_S8192x64_1_0_0_1_n_n 3 rfl rfl d
  have el : dot_S8192x3_S3x64_S8192x64_1_0_0_1_n_n.lhsIdx (ix2 p n) ((contrEquiv1 dot_S8192x3_S3x64_S8192x64_1_0_0_1_n_n 3 rfl rfl).symm d) = ix2 p d := funext fun a => Fin.ext (by
    match a with
    | ⟨0, _⟩ => exact d1_lhs0 _ _
    | ⟨1, _⟩ => exact (d1_lhs1 _ _).trans hk)
  have er : dot_S8192x3_S3x64_S8192x64_1_0_0_1_n_n.rhsIdx (ix2 p n) ((contrEquiv1 dot_S8192x3_S3x64_S8192x64_1_0_0_1_n_n 3 rfl rfl).symm d) = ix2 d n := funext fun a => Fin.ext (by
    match a with
    | ⟨0, _⟩ => exact (d1_rhs0 _ _).trans hk
    | ⟨1, _⟩ => exact d1_rhs1 _ _)
  rw [el, er]

theorem d2_lhs0 (i : S1x8192.Idx) (q : dot_S1x64_S8192x64_S1x8192_1_1_0_0_n_n.contr.Idx) : (dot_S1x64_S8192x64_S1x8192_1_1_0_0_n_n.lhsIdx i q 0).val = (i 0).val := by
  unfold DotDims.lhsIdx
  rw [dif_neg (show ¬(0 : Fin S1x64.rank) ∈ dot_S1x64_S8192x64_S1x8192_1_1_0_0_n_n.lhsBatch by decide), dif_pos (show (0 : Fin S1x64.rank) ∈ dot_S1x64_S8192x64_S1x8192_1_1_0_0_n_n.lhsNonContracting by decide)]
  rfl
theorem d2_lhs1 (i : S1x8192.Idx) (q : dot_S1x64_S8192x64_S1x8192_1_1_0_0_n_n.contr.Idx) : (dot_S1x64_S8192x64_S1x8192_1_1_0_0_n_n.lhsIdx i q 1).val = (q ⟨0, by decide⟩).val :=
  dot_S1x64_S8192x64_S1x8192_1_1_0_0_n_n.lhsIdx_val_of_single rfl i q
theorem d2_rhs0 (i : S1x8192.Idx) (q : dot_S1x64_S8192x64_S1x8192_1_1_0_0_n_n.contr.Idx) : (dot_S1x64_S8192x64_S1x8192_1_1_0_0_n_n.rhsIdx i q 0).val = (i 1).val := by
  unfold DotDims.rhsIdx
  rw [dif_neg (show ¬(0 : Fin S8192x64.rank) ∈ dot_S1x64_S8192x64_S1x8192_1_1_0_0_n_n.rhsBatch by decide), dif_pos (show (0 : Fin S8192x64.rank) ∈ dot_S1x64_S8192x64_S1x8192_1_1_0_0_n_n.rhsNonContracting by decide)]
  rfl
theorem d2_rhs1 (i : S1x8192.Idx) (q : dot_S1x64_S8192x64_S1x8192_1_1_0_0_n_n.contr.Idx) : (dot_S1x64_S8192x64_S1x8192_1_1_0_0_n_n.rhsIdx i q 1).val = (q ⟨0, by decide⟩).val :=
  dot_S1x64_S8192x64_S1x8192_1_1_0_0_n_n.rhsIdx_val_of_single rfl i q

/-- The second product into a zero accumulator at (0, p): the row c[0, :] against the row a[p, :]. -/
theorem matmul2_apply (c : FVec Ideal S1x64 .f32) (a : FVec Ideal S8192x64 .f32) (p : Fin 8192) :
    matmul dot_S1x64_S8192x64_S1x8192_1_1_0_0_n_n none c a (constant S1x8192 .f32 0x00000000#32) (ix2 (0 : Fin 1) p) = ∑ n : Fin 64, c (ix2 (0 : Fin 1) n) * a (ix2 p n) := by
  refine (Ideal.matmul_constant_zero_apply dot_S1x64_S8192x64_S1x8192_1_1_0_0_n_n none c a (ix2 (0 : Fin 1) p)).trans ?_
  rw [← Equiv.sum_comp (contrEquiv1 dot_S1x64_S8192x64_S1x8192_1_1_0_0_n_n 64 rfl rfl).symm]
  refine Finset.sum_congr rfl fun n _ => ?_
  have hk := contrEquiv1_symm_val dot_S1x64_S8192x64_S1x8192_1_1_0_0_n_n 64 rfl rfl n
  have el : dot_S1x64_S8192x64_S1x8192_1_1_0_0_n_n.lhsIdx (ix2 (0 : Fin 1) p) ((contrEquiv1 dot_S1x64_S8192x64_S1x8192_1_1_0_0_n_n 64 rfl rfl).symm n) = ix2 (0 : Fin 1) n := funext fun a => Fin.ext (by
    match a with
    | ⟨0, _⟩ => exact d2_lhs0 _ _
    | ⟨1, _⟩ => exact (d2_lhs1 _ _).trans hk)
  have er : dot_S1x64_S8192x64_S1x8192_1_1_0_0_n_n.rhsIdx (ix2 (0 : Fin 1) p) ((contrEquiv1 dot_S1x64_S8192x64_S1x8192_1_1_0_0_n_n 64 rfl rfl).symm n) = ix2 p n := funext fun a => Fin.ext (by
    match a with
    | ⟨0, _⟩ => exact d2_rhs0 _ _
    | ⟨1, _⟩ => exact (d2_rhs1 _ _).trans hk)
  rw [el, er]

/-! ## One head's row -/

/-- One head's row from its operands as matrices: the first product of the block x : [8192, 3] with the weights
    w : [3, 64] into zero, plus the bias row b : [1, 64] broadcast down the rows, through tanh, then the second product
    of the coefficient row c : [1, 64] with these activations into zero. -/
def row (x : FVec Ideal S8192x3 .f32) (w : FVec Ideal S3x64 .f32) (b c : FVec Ideal S1x64 .f32) : FVec Ideal S1x8192 .f32 :=
  matmul dot_S1x64_S8192x64_S1x8192_1_1_0_0_n_n none c
    (tanh (addf (matmul dot_S8192x3_S3x64_S8192x64_1_0_0_1_n_n none x w (constant S8192x64 .f32 0x00000000#32)) (broadcastTo S8192x64 b broadcasts_S1x64_S8192x64)))
    (constant S1x8192 .f32 0x00000000#32)

/-- The activations at (p, n): tanh of the row x[p, :] against the column w[:, n], plus b[0, n]. -/
theorem act_apply (x : FVec Ideal S8192x3 .f32) (w : FVec Ideal S3x64 .f32) (b : FVec Ideal S1x64 .f32) (p : Fin 8192) (n : Fin 64) :
    tanh (addf (matmul dot_S8192x3_S3x64_S8192x64_1_0_0_1_n_n none x w (constant S8192x64 .f32 0x00000000#32)) (broadcastTo S8192x64 b broadcasts_S1x64_S8192x64)) (ix2 p n)
      = Ideal.tanh ((∑ d : Fin 3, x (ix2 p d) * w (ix2 d n)) + b (ix2 (0 : Fin 1) n)) := by
  show Ideal.tanh (matmul dot_S8192x3_S3x64_S8192x64_1_0_0_1_n_n none x w (constant S8192x64 .f32 0x00000000#32) (ix2 p n)
      + broadcastTo S8192x64 b broadcasts_S1x64_S8192x64 (ix2 p n)) = _
  rw [matmul1_apply, broadcastTo_1b_ab_apply]

/-- The row at (0, p): the coefficients against the activations of sample p. -/
theorem row_apply (x : FVec Ideal S8192x3 .f32) (w : FVec Ideal S3x64 .f32) (b c : FVec Ideal S1x64 .f32) (p : Fin 8192) :
    row x w b c (ix2 (0 : Fin 1) p)
      = ∑ n : Fin 64, c (ix2 (0 : Fin 1) n) * Ideal.tanh ((∑ d : Fin 3, x (ix2 p d) * w (ix2 d n)) + b (ix2 (0 : Fin 1) n)) := by
  unfold row
  refine (matmul2_apply _ _ p).trans ?_
  exact Finset.sum_congr rfl fun n _ => congrArg (c (ix2 (0 : Fin 1) n) * ·) (act_apply x w b p n)

/-- The row from the loaded slices w : [1, 3, 64], b, c : [1, 1, 64], each viewed without its leading unit axis. -/
theorem row_cast_apply (x : FVec Ideal S8192x3 .f32) (w : FVec Ideal S1x3x64 .f32) (b c : FVec Ideal S1x1x64 .f32)
    (hw : S1x3x64.ShapeCasts S3x64) (hb hc : S1x1x64.ShapeCasts S1x64) (p : Fin 8192) :
    row x (shapeCast S3x64 w hw) (shapeCast S1x64 b hb) (shapeCast S1x64 c hc) (ix2 (0 : Fin 1) p)
      = ∑ n : Fin 64, c (ix3 (0 : Fin 1) (0 : Fin 1) n)
          * Ideal.tanh ((∑ d : Fin 3, x (ix2 p d) * w (ix3 (0 : Fin 1) d n)) + b (ix3 (0 : Fin 1) (0 : Fin 1) n)) := by
  refine (row_apply _ _ _ _ p).trans ?_
  refine Finset.sum_congr rfl fun n _ => ?_
  rw [shapeCast_1ab_ab_apply c hc (0 : Fin 1) n, shapeCast_1ab_ab_apply b hb (0 : Fin 1) n]
  refine congrArg (fun t => c (ix3 (0 : Fin 1) (0 : Fin 1) n) * Ideal.tanh (t + b (ix3 (0 : Fin 1) (0 : Fin 1) n))) ?_
  exact Finset.sum_congr rfl fun d _ => by rw [shapeCast_1ab_ab_apply w hw d n]

/-! ## The three rows stacked -/

/-- Three [1, 8192] rows concatenated along axis 0 read, in row 0, the first. -/
theorem stack_row0 (r0 r1 r2 : FVec Ideal S1x8192 .f32)
    (h : Shape.Concatenates ([(⟨S1x8192, r0⟩ : (s : Shape) × (s.Idx → Ideal .f32)), ⟨S1x8192, r1⟩, ⟨S1x8192, r2⟩].map (·.1)) S3x8192 0) (p : Fin 8192) :
    concatenate S3x8192 0 [⟨S1x8192, r0⟩, ⟨S1x8192, r1⟩, ⟨S1x8192, r2⟩] h (ix2 (0 : Fin 3) p) = r0 (ix2 (0 : Fin 1) p) :=
  concatenate_apply_piece (0 : Fin S3x8192.rank) _ h (ix2 (0 : Fin 3) p) 0 (show 0 < 3 by omega) S1x8192 r0 rfl rfl 0 rfl (ix2 (0 : Fin 1) p)
    (fun b hb => match b with
      | ⟨0, _⟩ => absurd rfl hb
      | ⟨1, _⟩ => rfl) rfl

/-- In row 1, the second. -/
theorem stack_row1 (r0 r1 r2 : FVec Ideal S1x8192 .f32)
    (h : Shape.Concatenates ([(⟨S1x8192, r0⟩ : (s : Shape) × (s.Idx → Ideal .f32)), ⟨S1x8192, r1⟩, ⟨S1x8192, r2⟩].map (·.1)) S3x8192 0) (p : Fin 8192) :
    concatenate S3x8192 0 [⟨S1x8192, r0⟩, ⟨S1x8192, r1⟩, ⟨S1x8192, r2⟩] h (ix2 (1 : Fin 3) p) = r1 (ix2 (0 : Fin 1) p) :=
  concatenate_apply_piece (0 : Fin S3x8192.rank) _ h (ix2 (1 : Fin 3) p) 1 (show 1 < 3 by omega) S1x8192 r1 rfl rfl 1 rfl (ix2 (0 : Fin 1) p)
    (fun b hb => match b with
      | ⟨0, _⟩ => absurd rfl hb
      | ⟨1, _⟩ => rfl) rfl

/-- In row 2, the third. -/
theorem stack_row2 (r0 r1 r2 : FVec Ideal S1x8192 .f32)
    (h : Shape.Concatenates ([(⟨S1x8192, r0⟩ : (s : Shape) × (s.Idx → Ideal .f32)), ⟨S1x8192, r1⟩, ⟨S1x8192, r2⟩].map (·.1)) S3x8192 0) (p : Fin 8192) :
    concatenate S3x8192 0 [⟨S1x8192, r0⟩, ⟨S1x8192, r1⟩, ⟨S1x8192, r2⟩] h (ix2 (2 : Fin 3) p) = r2 (ix2 (0 : Fin 1) p) :=
  concatenate_apply_piece (0 : Fin S3x8192.rank) _ h (ix2 (2 : Fin 3) p) 2 (show 2 < 3 by omega) S1x8192 r2 rfl rfl 2 rfl (ix2 (0 : Fin 1) p)
    (fun b hb => match b with
      | ⟨0, _⟩ => absurd rfl hb
      | ⟨1, _⟩ => rfl) rfl

/-! ## What the body stores -/

section Store

variable (v0 : Vec Ideal S8192x3 .f32) (v1 v12 v23 : Vec Ideal S1x3x64 .f32)
  (v3 v14 v25 v5 v16 v27 : Vec Ideal S1x1x64 .f32)

/-- The stored value is the three heads' rows, each from its own slices viewed as matrices, concatenated along
    axis 0. -/
theorem store_eq_rows :
    k0_pay1 v0 (k0_pay2 v0 v1 v3 v5) (k0_pay3 v0 v12 v14 v16) (k0_pay4 v23) (k0_pay5 v25) v27
      = concatenate S3x8192 0
          [⟨S1x8192, row v0 (shapeCast S3x64 v1 shapeCasts_S1x3x64_S3x64) (shapeCast S1x64 v3 shapeCasts_S1x1x64_S1x64)
              (shapeCast S1x64 v5 shapeCasts_S1x1x64_S1x64)⟩,
           ⟨S1x8192, row v0 (shapeCast S3x64 v12 shapeCasts_S1x3x64_S3x64) (shapeCast S1x64 v14 shapeCasts_S1x1x64_S1x64)
              (shapeCast S1x64 v16 shapeCasts_S1x1x64_S1x64)⟩,
           ⟨S1x8192, row v0 (shapeCast S3x64 v23 shapeCasts_S1x3x64_S3x64) (shapeCast S1x64 v25 shapeCasts_S1x1x64_S1x64)
              (shapeCast S1x64 v27 shapeCasts_S1x1x64_S1x64)⟩]
          concatenates_S1x8192_S1x8192_S1x8192_S3x8192_d0 := rfl

/-- Row 0 of the stored value at column p: head 0's coefficients against its activations at sample p. -/
theorem store_row0 (p : Fin 8192) :
    k0_pay1 v0 (k0_pay2 v0 v1 v3 v5) (k0_pay3 v0 v12 v14 v16) (k0_pay4 v23) (k0_pay5 v25) v27 (ix2 (0 : Fin 3) p)
      = ∑ n : Fin 64, v5 (ix3 (0 : Fin 1) (0 : Fin 1) n)
          * Ideal.tanh ((∑ d : Fin 3, v0 (ix2 p d) * v1 (ix3 (0 : Fin 1) d n)) + v3 (ix3 (0 : Fin 1) (0 : Fin 1) n)) :=
  (congrFun (store_eq_rows v0 v1 v12 v23 v3 v14 v25 v5 v16 v27) (ix2 (0 : Fin 3) p)).trans
    ((stack_row0 _ _ _ _ p).trans (row_cast_apply v0 v1 v3 v5 _ _ _ p))

/-- Row 1 at column p: head 1's. -/
theorem store_row1 (p : Fin 8192) :
    k0_pay1 v0 (k0_pay2 v0 v1 v3 v5) (k0_pay3 v0 v12 v14 v16) (k0_pay4 v23) (k0_pay5 v25) v27 (ix2 (1 : Fin 3) p)
      = ∑ n : Fin 64, v16 (ix3 (0 : Fin 1) (0 : Fin 1) n)
          * Ideal.tanh ((∑ d : Fin 3, v0 (ix2 p d) * v12 (ix3 (0 : Fin 1) d n)) + v14 (ix3 (0 : Fin 1) (0 : Fin 1) n)) :=
  (congrFun (store_eq_rows v0 v1 v12 v23 v3 v14 v25 v5 v16 v27) (ix2 (1 : Fin 3) p)).trans
    ((stack_row1 _ _ _ _ p).trans (row_cast_apply v0 v12 v14 v16 _ _ _ p))

/-- Row 2 at column p: head 2's. -/
theorem store_row2 (p : Fin 8192) :
    k0_pay1 v0 (k0_pay2 v0 v1 v3 v5) (k0_pay3 v0 v12 v14 v16) (k0_pay4 v23) (k0_pay5 v25) v27 (ix2 (2 : Fin 3) p)
      = ∑ n : Fin 64, v27 (ix3 (0 : Fin 1) (0 : Fin 1) n)
          * Ideal.tanh ((∑ d : Fin 3, v0 (ix2 p d) * v23 (ix3 (0 : Fin 1) d n)) + v25 (ix3 (0 : Fin 1) (0 : Fin 1) n)) :=
  (congrFun (store_eq_rows v0 v1 v12 v23 v3 v14 v25 v5 v16 v27) (ix2 (2 : Fin 3) p)).trans
    ((stack_row2 _ _ _ _ p).trans (row_cast_apply v0 v23 v25 v27 _ _ _ p))

end Store

end Cert.KernelIdeal.BodyValue

end
-- ==== Proof.Blocks.lean ====
import proofs.«110611_j45707041964786_1_alg».proof.Proof.Gen.KernelIdeal.Launch
import proofs.«110611_j45707041964786_1_alg».proof.Proof.Gen.KernelIdeal.Points
import Idealize.ShloMosaic.Lib.Pipeline.Value
import Idealize.ShloMosaic.Lib.ValueIdx

/-!
  Where a block of a window sits in its array.

  The grid has 123 points `t = 0, …, 122`. The sample array `x : [1000000, 3]` is staged in blocks of 8192 rows,
  the block at point `t` starting at row `8192 · t`; the result `[3, 1000000]` is staged in blocks of 8192 columns,
  the block at point `t` starting at column `8192 · t`. Since `1000000 = 122 · 8192 + 576`, the blocks at the points
  `t < 122` lie inside their arrays and the block at `t = 122` overhangs: only its first `576` rows (columns) are
  inside, and only those are moved. In one formula, the part moved at point `t` has
  `min 8192 (1000000 - 8192 · t)` rows (columns). The three parameter arrays `[3, 3, 64]`, `[3, 1, 64]`, `[3, 1, 64]`
  are each one block, at block index zero.

  The relations between the index maps and the point number are decided once over the 123 points; everything after
  that is linear arithmetic: an element `y` of the block at `t` sits in the array at
  `block index · block size + y` on each axis, and every column `c < 1000000` of the result lies in the block at
  point `c / 8192`.
-/

noncomputable section

namespace Cert.KernelIdeal.Blocks

open Cert.KernelIdeal Cert.KernelIdeal.Gen Idealize.ShloMosaic Idealize.ShloMosaic.ValueIdx

variable {F : FTy → Type} [FloatOps F]

/-! ## The index maps and the cut sizes, decided once over the grid -/

/-- A point's number is below 123. -/
theorem t_lt (t : Fin cfg0.N) : t.val < 123 := lt_of_lt_of_eq t.isLt N_0

/-- The sample window at point `t`: block index `(t, 0)`; the part moved has `min 8192 (1000000 - 8192 t)` rows and
    all 3 columns. -/
theorem facts0 : ∀ t : Fin cfg0.N,
    win0_0.index t 0 = t.val ∧ win0_0.index t 1 = 0
      ∧ win0_0.xsize (grid0.coords t) 0 = min 8192 (1000000 - 8192 * t.val) ∧ win0_0.xsize (grid0.coords t) 1 = 3 :=
  (by decide +kernel : ∀ t : Fin grid0.N,
    win0_0.index t 0 = t.val ∧ win0_0.index t 1 = 0
      ∧ win0_0.xsize (grid0.coords t) 0 = min 8192 (1000000 - 8192 * t.val) ∧ win0_0.xsize (grid0.coords t) 1 = 3)

/-- The result window at point `t`: block index `(0, t)`; the part moved has all 3 rows and
    `min 8192 (1000000 - 8192 t)` columns. -/
theorem facts4 : ∀ t : Fin cfg0.N,
    win0_4.index t 0 = 0 ∧ win0_4.index t 1 = t.val
      ∧ win0_4.xsize (grid0.coords t) 0 = 3 ∧ win0_4.xsize (grid0.coords t) 1 = min 8192 (1000000 - 8192 * t.val) :=
  (by decide +kernel : ∀ t : Fin grid0.N,
    win0_4.index t 0 = 0 ∧ win0_4.index t 1 = t.val
      ∧ win0_4.xsize (grid0.coords t) 0 = 3 ∧ win0_4.xsize (grid0.coords t) 1 = min 8192 (1000000 - 8192 * t.val))

/-- The three parameter windows have block index zero at every point. -/
theorem facts1 : ∀ t : Fin cfg0.N, win0_1.index t 0 = 0 ∧ win0_1.index t 1 = 0 ∧ win0_1.index t 2 = 0 :=
  (by decide +kernel : ∀ t : Fin grid0.N, win0_1.index t 0 = 0 ∧ win0_1.index t 1 = 0 ∧ win0_1.index t 2 = 0)
theorem facts2 : ∀ t : Fin cfg0.N, win0_2.index t 0 = 0 ∧ win0_2.index t 1 = 0 ∧ win0_2.index t 2 = 0 :=
  (by decide +kernel : ∀ t : Fin grid0.N, win0_2.index t 0 = 0 ∧ win0_2.index t 1 = 0 ∧ win0_2.index t 2 = 0)
theorem facts3 : ∀ t : Fin cfg0.N, win0_3.index t 0 = 0 ∧ win0_3.index t 1 = 0 ∧ win0_3.index t 2 = 0 :=
  (by decide +kernel : ∀ t : Fin grid0.N, win0_3.index t 0 = 0 ∧ win0_3.index t 1 = 0 ∧ win0_3.index t 2 = 0)

/-! ## The cut sizes -/

/-- The sample block at point `t` moves `min 8192 (1000000 - 8192 t)` rows, -/
theorem xs0 (t : Fin cfg0.N) : win0_0.xsize (grid0.coords t) 0 = min 8192 (1000000 - 8192 * t.val) := (facts0 t).2.2.1
/-- and all three columns. -/
theorem xs0_col (t : Fin cfg0.N) : win0_0.xsize (grid0.coords t) 1 = 3 := (facts0 t).2.2.2
/-- The result block at point `t` moves all three rows, -/
theorem xs4_row (t : Fin cfg0.N) : win0_4.xsize (grid0.coords t) 0 = 3 := (facts4 t).2.2.1
/-- and `min 8192 (1000000 - 8192 t)` columns: -/
theorem xs4_col (t : Fin cfg0.N) : win0_4.xsize (grid0.coords t) 1 = min 8192 (1000000 - 8192 * t.val) := (facts4 t).2.2.2
/-- as many columns as the sample block moves rows. -/
theorem xs4 (t : Fin cfg0.N) : win0_4.xsize (grid0.coords t) 1 = win0_0.xsize (grid0.coords t) 0 :=
  (xs4_col t).trans (xs0 t).symm

/-- The number of rows moved is at most the block's 8192, -/
theorem xs0_le (t : Fin cfg0.N) : win0_0.xsize (grid0.coords t) 0 ≤ 8192 := by rw [xs0]; omega
/-- is positive, -/
theorem xs0_pos (t : Fin cfg0.N) : 0 < win0_0.xsize (grid0.coords t) 0 := by rw [xs0]; have := t_lt t; omega
/-- ends inside the array, -/
theorem xs0_inb (t : Fin cfg0.N) : t.val * 8192 + win0_0.xsize (grid0.coords t) 0 ≤ 1000000 := by
  rw [xs0]; have := t_lt t; omega
/-- is the whole block before the last point, -/
theorem xs0_full (t : Fin cfg0.N) (h : t.val < 122) : win0_0.xsize (grid0.coords t) 0 = 8192 := by rw [xs0]; omega
/-- and `1000000 - 122 · 8192 = 576` at the last point. -/
theorem xs0_last (t : Fin cfg0.N) (h : t.val = 122) : win0_0.xsize (grid0.coords t) 0 = 576 := by rw [xs0]; omega

/-! ## An element of a block, in the array -/

/-- Row `y 0` of the sample block at `t` is row `8192 t + y 0` of the array, which has a million rows. -/
theorem row_lt0 (t : Fin cfg0.N) (y : (win0_0.xblock (grid0.coords t)).Idx) : t.val * 8192 + (y 0).val < 1000000 := by
  have h : (y 0).val < win0_0.xsize (grid0.coords t) 0 := (y 0).isLt
  have := xs0_inb t
  omega
theorem col_lt0 (t : Fin cfg0.N) (y : (win0_0.xblock (grid0.coords t)).Idx) : (y 1).val < 3 := by
  have h : (y 1).val < win0_0.xsize (grid0.coords t) 1 := (y 1).isLt
  rw [xs0_col] at h
  exact h

/-- The sample block at point `t`, read off the array `X`: its element `(y 0, y 1)` is `X[8192 t + y 0, y 1]`. -/
theorem read_blk0 (X : S1000000x3.Idx → Elt F .f32) (t : Fin cfg0.N) (y : (win0_0.xblock (grid0.coords t)).Idx) :
    (win0_0.blk t).view.read (Elt F) X y = X (ix2 ⟨t.val * 8192 + (y 0).val, row_lt0 t y⟩ ⟨(y 1).val, col_lt0 t y⟩) := by
  have e : (win0_0.rect t).emb y = ix2 ⟨t.val * 8192 + (y 0).val, row_lt0 t y⟩ ⟨(y 1).val, col_lt0 t y⟩ :=
    funext fun a => Fin.ext (by
      rw [Pipeline.Window.rect_emb_val]
      match a with
      | ⟨0, _⟩ => show win0_0.index t 0 * 8192 + (y 0).val = t.val * 8192 + (y 0).val; rw [(facts0 t).1]
      | ⟨1, _⟩ => show win0_0.index t 1 * 3 + (y 1).val = (y 1).val; rw [(facts0 t).2.1]; omega)
  show X ((win0_0.rect t).emb y) = _
  rw [e]

/-- Column `j 1` of the result block at `t` is column `8192 t + j 1` of the array, which has a million columns. -/
theorem row_lt4 (t : Fin cfg0.N) (j : (win0_4.xblock (grid0.coords t)).Idx) : (j 0).val < 3 := by
  have h : (j 0).val < win0_4.xsize (grid0.coords t) 0 := (j 0).isLt
  rw [xs4_row] at h
  exact h
theorem col_lt4 (t : Fin cfg0.N) (j : (win0_4.xblock (grid0.coords t)).Idx) : t.val * 8192 + (j 1).val < 1000000 := by
  have h : (j 1).val < win0_4.xsize (grid0.coords t) 1 := (j 1).isLt
  rw [xs4] at h
  have := xs0_inb t
  omega

/-- The result block at point `t`, read off the array `G`: its element `(j 0, j 1)` is `G[j 0, 8192 t + j 1]`. -/
theorem read_blk4 (G : S3x1000000.Idx → Elt F .f32) (t : Fin cfg0.N) (j : (win0_4.xblock (grid0.coords t)).Idx) :
    (win0_4.blk t).view.read (Elt F) G j = G (ix2 ⟨(j 0).val, row_lt4 t j⟩ ⟨t.val * 8192 + (j 1).val, col_lt4 t j⟩) := by
  have e : (win0_4.rect t).emb j = ix2 ⟨(j 0).val, row_lt4 t j⟩ ⟨t.val * 8192 + (j 1).val, col_lt4 t j⟩ :=
    funext fun a => Fin.ext (by
      rw [Pipeline.Window.rect_emb_val]
      match a with
      | ⟨0, _⟩ => show win0_4.index t 0 * 3 + (j 0).val = (j 0).val; rw [(facts4 t).1]; omega
      | ⟨1, _⟩ => show win0_4.index t 1 * 8192 + (j 1).val = t.val * 8192 + (j 1).val; rw [(facts4 t).2.1])
  show G ((win0_4.rect t).emb j) = _
  rw [e]

/-- The weight array `[3, 3, 64]` is one block: its element `y` is the array's element `y`. -/
theorem read_blk1 (A : S3x3x64.Idx → Elt F .f32) (t : Fin cfg0.N) (y : (win0_1.xblock (grid0.coords t)).Idx) :
    (win0_1.blk t).view.read (Elt F) A y
      = A (ix3 (⟨(y 0).val, (y 0).isLt⟩ : Fin 3) (⟨(y 1).val, (y 1).isLt⟩ : Fin 3) (⟨(y 2).val, (y 2).isLt⟩ : Fin 64)) := by
  have e : (win0_1.rect t).emb y
      = ix3 (⟨(y 0).val, (y 0).isLt⟩ : Fin 3) (⟨(y 1).val, (y 1).isLt⟩ : Fin 3) (⟨(y 2).val, (y 2).isLt⟩ : Fin 64) :=
    funext fun a => Fin.ext (by
      match a with
      | ⟨0, _⟩ => exact win0_1.rect_emb_val_of_index_zero t 0 (facts1 t).1 y
      | ⟨1, _⟩ => exact win0_1.rect_emb_val_of_index_zero t 1 (facts1 t).2.1 y
      | ⟨2, _⟩ => exact win0_1.rect_emb_val_of_index_zero t 2 (facts1 t).2.2 y)
  show A ((win0_1.rect t).emb y) = _
  rw [e]

/-- The bias array `[3, 1, 64]` is one block: its element `y` is the array's element `y`. -/
theorem read_blk2 (A : S3x1x64.Idx → Elt F .f32) (t : Fin cfg0.N) (y : (win0_2.xblock (grid0.coords t)).Idx) :
    (win0_2.blk t).view.read (Elt F) A y
      = A (ix3 (⟨(y 0).val, (y 0).isLt⟩ : Fin 3) (⟨(y 1).val, (y 1).isLt⟩ : Fin 1) (⟨(y 2).val, (y 2).isLt⟩ : Fin 64)) := by
  have e : (win0_2.rect t).emb y
      = ix3 (⟨(y 0).val, (y 0).isLt⟩ : Fin 3) (⟨(y 1).val, (y 1).isLt⟩ : Fin 1) (⟨(y 2).val, (y 2).isLt⟩ : Fin 64) :=
    funext fun a => Fin.ext (by
      match a with
      | ⟨0, _⟩ => exact win0_2.rect_emb_val_of_index_zero t 0 (facts2 t).1 y
      | ⟨1, _⟩ => exact win0_2.rect_emb_val_of_index_zero t 1 (facts2 t).2.1 y
      | ⟨2, _⟩ => exact win0_2.rect_emb_val_of_index_zero t 2 (facts2 t).2.2 y)
  show A ((win0_2.rect t).emb y) = _
  rw [e]

/-- The coefficient array `[3, 1, 64]` is one block: its element `y` is the array's element `y`. -/
theorem read_blk3 (A : S3x1x64.Idx → Elt F .f32) (t : Fin cfg0.N) (y : (win0_3.xblock (grid0.coords t)).Idx) :
    (win0_3.blk t).view.read (Elt F) A y
      = A (ix3 (⟨(y 0).val, (y 0).isLt⟩ : Fin 3) (⟨(y 1).val, (y 1).isLt⟩ : Fin 1) (⟨(y 2).val, (y 2).isLt⟩ : Fin 64)) := by
  have e : (win0_3.rect t).emb y
      = ix3 (⟨(y 0).val, (y 0).isLt⟩ : Fin 3) (⟨(y 1).val, (y 1).isLt⟩ : Fin 1) (⟨(y 2).val, (y 2).isLt⟩ : Fin 64) :=
    funext fun a => Fin.ext (by
      match a with
      | ⟨0, _⟩ => exact win0_3.rect_emb_val_of_index_zero t 0 (facts3 t).1 y
      | ⟨1, _⟩ => exact win0_3.rect_emb_val_of_index_zero t 1 (facts3 t).2.1 y
      | ⟨2, _⟩ => exact win0_3.rect_emb_val_of_index_zero t 2 (facts3 t).2.2 y)
  show A ((win0_3.rect t).emb y) = _
  rw [e]

/-! ## The result blocks cover the result, and do not overlap -/

/-- An index of the result array lies in the block at point `t` iff its column is one of the
    `min 8192 (1000000 - 8192 t)` columns from `8192 t` on (every row does: the blocks span the three rows). -/
theorem mem_blk4 (t : Fin cfg0.N) (i : S3x1000000.Idx) :
    i ∈ (win0_4.blk t).view.set ↔ t.val * 8192 ≤ (i 1).val ∧ (i 1).val < t.val * 8192 + win0_4.xsize (grid0.coords t) 1 := by
  show i ∈ ((View.whole main_v7).slice (win0_4.rect t)).set ↔ _
  rw [View.set_slice_whole, Rect.mem_set_unit]
  have h0 : (i 0).val < 3 := (i 0).isLt
  obtain ⟨e0, e1, s0, -⟩ := facts4 t
  constructor
  · intro h
    have h1 := h 1
    change win0_4.index t 1 * 8192 ≤ (i 1).val ∧ (i 1).val < win0_4.index t 1 * 8192 + win0_4.xsize (grid0.coords t) 1 at h1
    rw [e1] at h1
    exact h1
  · intro h a
    match a with
    | ⟨0, _⟩ =>
      show win0_4.index t 0 * 3 ≤ (i 0).val ∧ (i 0).val < win0_4.index t 0 * 3 + win0_4.xsize (grid0.coords t) 0
      rw [e0, s0]; omega
    | ⟨1, _⟩ =>
      show win0_4.index t 1 * 8192 ≤ (i 1).val ∧ (i 1).val < win0_4.index t 1 * 8192 + win0_4.xsize (grid0.coords t) 1
      rw [e1]; exact h

/-- Every index of the result array lies in a block that is written back: column `c` in the block at point
    `c / 8192`, since `8192 (c / 8192) ≤ c < 8192 (c / 8192) + min 8192 (1000000 - 8192 (c / 8192))` for `c < 1000000`. -/
theorem cover4 : ∀ i : S3x1000000.Idx, ∃ t : Fin cfg0.N, (cfg0.win 4).flush t = true ∧ i ∈ ((cfg0.win 4).blk t).view.set := by
  intro i
  have h1 : (i 1).val < 1000000 := (i 1).isLt
  obtain ⟨t, ht⟩ : ∃ t : Fin cfg0.N, t.val = (i 1).val / 8192 :=
    ⟨⟨(i 1).val / 8192, lt_of_lt_of_eq (show (i 1).val / 8192 < 123 by omega) N_0.symm⟩, rfl⟩
  refine ⟨t, flush0_4 t, ?_⟩
  show i ∈ (win0_4.blk t).view.set
  rw [mem_blk4, xs4_col]
  omega

/-- The blocks at two different points have no index in common: their column ranges are `8192` apart and at most
    `8192` long. -/
theorem disj4 (t t' : Fin cfg0.N) (h : t ≠ t') : Disjoint ((cfg0.win 4).blk t).view.set ((cfg0.win 4).blk t').view.set := by
  show Disjoint (win0_4.blk t).view.set (win0_4.blk t').view.set
  rw [Finset.disjoint_left]
  intro i hi hi'
  rw [mem_blk4, xs4_col] at hi hi'
  have hne : t.val ≠ t'.val := fun e => h (Fin.ext e)
  omega

/-! ## The part of a staging block that a transfer moves -/

/-- An index of the part moved is the same index of the whole block. -/
theorem xinj0_val (t : Fin cfg0.N) (y : (win0_0.xblock (grid0.coords t)).Idx) (a : Fin win0_0.shape.rank) :
    ((win0_0.xinj (grid0.coords t) y) a).val = (y a).val := rfl
theorem xinj4_val (t : Fin cfg0.N) (j : (win0_4.xblock (grid0.coords t)).Idx) (a : Fin win0_4.shape.rank) :
    ((win0_4.xinj (grid0.coords t) j) a).val = (j a).val := rfl

/-- The same, with the coordinates spelt out over the block's literal sizes. -/
theorem xinj0_eq (t : Fin cfg0.N) (y : (win0_0.xblock (grid0.coords t)).Idx) :
    win0_0.xinj (grid0.coords t) y
      = ix2 (⟨(y 0).val, lt_of_lt_of_le (y 0).isLt (xs0_le t)⟩ : Fin 8192) (⟨(y 1).val, col_lt0 t y⟩ : Fin 3) :=
  funext fun a => Fin.ext (by match a with | ⟨0, _⟩ => rfl | ⟨1, _⟩ => rfl)
theorem xinj4_eq (t : Fin cfg0.N) (j : (win0_4.xblock (grid0.coords t)).Idx) :
    win0_4.xinj (grid0.coords t) j
      = ix2 (⟨(j 0).val, row_lt4 t j⟩ : Fin 3)
          (⟨(j 1).val, lt_of_lt_of_le (j 1).isLt ((xs4 t).le.trans (xs0_le t))⟩ : Fin 8192) :=
  funext fun a => Fin.ext (by match a with | ⟨0, _⟩ => rfl | ⟨1, _⟩ => rfl)

/-- What a write-back of the result's staging block `X` writes at point `t`: at `(j 0, j 1)`, `X[j 0, j 1]`. -/
theorem cut4_apply {α : Type} (t : Fin cfg0.N) (X : S3x8192.Idx → α) (j : (win0_4.xblock (grid0.coords t)).Idx) :
    win0_4.cut (grid0.coords t) X j
      = X (ix2 (⟨(j 0).val, row_lt4 t j⟩ : Fin 3)
          (⟨(j 1).val, lt_of_lt_of_le (j 1).isLt ((xs4 t).le.trans (xs0_le t))⟩ : Fin 8192)) := by
  show X (win0_4.xinj (grid0.coords t) j) = _
  rw [xinj4_eq]

/-- The index `(p, q)` of the part of the sample block moved at point `t`, for a row `p` among the rows moved. -/
abbrev xix0 (t : Fin cfg0.N) (p : Fin 8192) (q : Fin 3) (hp : p.val < win0_0.xsize (grid0.coords t) 0) :
    (win0_0.xblock (grid0.coords t)).Idx :=
  fun a => match a with
    | ⟨0, _⟩ => ⟨p.val, hp⟩
    | ⟨1, _⟩ => ⟨q.val, lt_of_lt_of_eq q.isLt (xs0_col t).symm⟩

/-- It is `(p, q)` of the whole block. -/
theorem xinj0_xix0 (t : Fin cfg0.N) (p : Fin 8192) (q : Fin 3) (hp : p.val < win0_0.xsize (grid0.coords t) 0) :
    win0_0.xinj (grid0.coords t) (xix0 t p q hp) = ix2 p q :=
  funext fun a => Fin.ext (by match a with | ⟨0, _⟩ => rfl | ⟨1, _⟩ => rfl)

/-- After a fetch of `g` into a staging block holding `d`, a row among the rows moved holds `g`'s. -/
theorem fill_inside {α : Type} (t : Fin cfg0.N) (d : S8192x3.Idx → α) (g : (win0_0.xblock (grid0.coords t)).Idx → α)
    (p : Fin 8192) (q : Fin 3) (hp : p.val < win0_0.xsize (grid0.coords t) 0) :
    win0_0.fill (grid0.coords t) d g (ix2 p q) = g (xix0 t p q hp) := by
  rw [← xinj0_xix0 t p q hp]
  exact win0_0.fill_xinj (grid0.coords t) d g (xix0 t p q hp)

/-- A row past the rows moved keeps what the block held. -/
theorem fill_outside {α : Type} (t : Fin cfg0.N) (d : S8192x3.Idx → α) (g : (win0_0.xblock (grid0.coords t)).Idx → α)
    (p : Fin 8192) (q : Fin 3) (hp : ¬p.val < win0_0.xsize (grid0.coords t) 0) :
    win0_0.fill (grid0.coords t) d g (ix2 p q) = d (ix2 p q) :=
  win0_0.fill_of_not_moved (grid0.coords t) d g fun h => hp ((win0_0.moved_iff (grid0.coords t) (ix2 p q)).mp h 0)

end Cert.KernelIdeal.Blocks

end
-- ==== Proof.BlockValue.lean ====
/-
  The kernel program's three results, at the extended reals, as functions of the argument arrays.

  The region's result array [3, 1000000] ends holding, at (k, q),
      ∑ n, C[k, 0, n] · tanh (∑ d, x[q, d] · A[k, d, n] + B[k, 0, n])
  of the arrays the region finds: the samples x and the parameters as the host operations before the region lay them
  out (A[k, d, n] = W[n, k, d], B[k, 0, n] = b[n, k], C[k, 0, n] = c_k[0, n]). Point t of the grid writes columns
  8192·t … of it (the last point only the 576 columns inside the array); column q depends on row q of x alone, so the
  rows of the sample block past the array's end, which hold words nothing names, never reach a column that is written
  back. The host operations after the region cut row k out as the column [1000000, 1] of head k.
-/
import proofs.«110611_j45707041964786_1_alg».proof.Proof.KFrame
import proofs.«110611_j45707041964786_1_alg».proof.Proof.Spec
import proofs.«110611_j45707041964786_1_alg».proof.Proof.BodyValue
import proofs.«110611_j45707041964786_1_alg».proof.Proof.Blocks
import Idealize.ShloMosaic.Lib.Pipeline.Value
import Idealize.ShloMosaic.Lib.ValueIdx

set_option maxRecDepth 16384

noncomputable section

open scoped BigOperators

namespace Cert.KernelIdeal.BlockValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ) (ρ : Dev nD → PrngReg)

/-! ## The result array as one function of the arrays the region finds -/

/-- Entry (k, q) of the result from the sample array `X` and the laid-out parameters `A`, `B`, `C`. -/
def Gof (X : S1000000x3.Idx → EReal) (A : S3x3x64.Idx → EReal) (B C : S3x1x64.Idx → EReal) : S3x1000000.Idx → EReal :=
  fun i => ∑ n : Fin 64, C (ix3 (⟨(i 0).val, (i 0).isLt⟩ : Fin 3) (0 : Fin 1) n)
    * Ideal.tanh ((∑ d : Fin 3, X (ix2 (⟨(i 1).val, (i 1).isLt⟩ : Fin 1000000) d) * A (ix3 (⟨(i 0).val, (i 0).isLt⟩ : Fin 3) d n))
        + B (ix3 (⟨(i 0).val, (i 0).isLt⟩ : Fin 3) (0 : Fin 1) n))

/-- The result array on core `c`, of the contents the region finds there. -/
def Gfull (c : Dev nD) : Buf (Elt Ideal) ((c : Thread nD τ).loc main_v7) :=
  Gof (V m c main_arg0) (V m c main_v0) (V m c main_v2) (V m c main_v6)

/-- What is named for the result's staging buffer after point `t`: block `t` of the result array on the part written
    back, the zero word past it. -/
def o4 (c : Dev nD) (t : Fin cfg0.N) : S3x8192.Idx → Elt Ideal .f32 :=
  win0_4.fill (grid0.coords t) (fun _ => Scalar.ofBits (F := Ideal) .f32 0#32) ((win0_4.blk t).view.read (Elt Ideal) (Gfull m c))

/-- The part of it that is written back is block `t` of the result array. -/
theorem cut_o4 (c : Dev nD) (t : Fin cfg0.N) :
    win0_4.cut (grid0.coords t) (o4 m c t) = (win0_4.blk t).view.read (Elt Ideal) (Gfull m c) :=
  win0_4.cut_fill _ _ _

/-! ## The stored value at an index -/

/-- A load through a unit-stride rectangle reads the contents at the offsets plus the load's own coordinates. -/
theorem ld_unit_apply {S : Shape} {α : Type} (X : S.Idx → α) (off size : Fin S.rank → Nat)
    (inb : ∀ a, off a + size a ≤ S.size a) (j : (Rect.unit off size inb).shape.Idx) (i : S.Idx)
    (h : ∀ a, (i a).val = off a + (j a).val) : X ((Rect.unit off size inb).idx j) = X i :=
  congrArg X (funext fun a => Fin.ext (by
    rw [h a]; show off a + 1 * (j a).val = off a + (j a).val; rw [Nat.one_mul]))

/-- Slice k of a [3, 3, 64] array, read at (0, d, n), is the array at (k, d, n). -/
theorem ld_W (X : Vec Ideal S3x3x64 .f32) (k : Fin 3) (inb : ∀ a, (![k.val, 0, 0] : Fin 3 → Nat) a + S1x3x64.size a ≤ S3x3x64.size a)
    (d : Fin 3) (n : Fin 64) :
    View.ld X (Rect.unit (s := S3x3x64) ![k.val, 0, 0] S1x3x64.size inb) (ix3 (0 : Fin 1) d n) = X (ix3 k d n) :=
  ld_unit_apply X _ _ inb (ix3 (0 : Fin 1) d n) (ix3 k d n) fun a => match a with
    | ⟨0, _⟩ => (Nat.add_zero _).symm
    | ⟨1, _⟩ => (Nat.zero_add _).symm
    | ⟨2, _⟩ => (Nat.zero_add _).symm

/-- Slice k of a [3, 1, 64] array, read at (0, 0, n), is the array at (k, 0, n). -/
theorem ld_B (X : Vec Ideal S3x1x64 .f32) (k : Fin 3) (inb : ∀ a, (![k.val, 0, 0] : Fin 3 → Nat) a + S1x1x64.size a ≤ S3x1x64.size a)
    (n : Fin 64) :
    View.ld X (Rect.unit (s := S3x1x64) ![k.val, 0, 0] S1x1x64.size inb) (ix3 (0 : Fin 1) (0 : Fin 1) n) = X (ix3 k (0 : Fin 1) n) :=
  ld_unit_apply X _ _ inb (ix3 (0 : Fin 1) (0 : Fin 1) n) (ix3 k (0 : Fin 1) n) fun a => match a with
    | ⟨0, _⟩ => (Nat.add_zero _).symm
    | ⟨1, _⟩ => (Nat.zero_add _).symm
    | ⟨2, _⟩ => (Nat.zero_add _).symm

theorem zero2 : (![0, 0] : Fin 2 → Nat) = fun _ => 0 := by
  funext a; match a with | ⟨0, _⟩ => rfl | ⟨1, _⟩ => rfl

/-- The load of the whole sample block reads it. -/
theorem ld_X (X : Vec Ideal S8192x3 .f32) : View.ld X rX = X := View.ld_unit_zero zero2 _ X

section Stored

variable (X0 : Vec Ideal S8192x3 .f32) (X1 : Vec Ideal S3x3x64 .f32) (X2 X3 : Vec Ideal S3x1x64 .f32)

/-- The body's one store covers the staging buffer: what it leaves is the stored value. -/
theorem out0_4_eq : out0_4 X0 X1 X2 X3 = stored X0 X1 X2 X3 := View.canon_unit_zero zero2 _ _

/-- Row k of the stored value at column p, from the contents of the four input buffers: the coefficients of head k
    against its activations at row p of the sample block. -/
theorem stored_apply (k : Fin 3) (p : Fin 8192) :
    stored X0 X1 X2 X3 (ix2 k p)
      = ∑ n : Fin 64, X3 (ix3 k (0 : Fin 1) n)
          * Ideal.tanh ((∑ d : Fin 3, X0 (ix2 p d) * X1 (ix3 k d n)) + X2 (ix3 k (0 : Fin 1) n)) := by
  unfold stored
  rw [ld_X]
  match k with
  | ⟨0, _⟩ =>
    refine (BodyValue.store_row0 X0 _ _ _ _ _ _ _ _ _ p).trans ?_
    refine Finset.sum_congr rfl fun n _ => ?_
    rw [show View.ld X3 rB0 (ix3 (0 : Fin 1) (0 : Fin 1) n) = X3 (ix3 (0 : Fin 3) (0 : Fin 1) n) from ld_B X3 0 _ n,
      show View.ld X2 rB0 (ix3 (0 : Fin 1) (0 : Fin 1) n) = X2 (ix3 (0 : Fin 3) (0 : Fin 1) n) from ld_B X2 0 _ n]
    refine congrArg (fun s => X3 (ix3 (0 : Fin 3) (0 : Fin 1) n) * Ideal.tanh (s + X2 (ix3 (0 : Fin 3) (0 : Fin 1) n))) ?_
    exact Finset.sum_congr rfl fun d _ => congrArg (X0 (ix2 p d) * ·) (ld_W X1 0 _ d n)
  | ⟨1, _⟩ =>
    refine (BodyValue.store_row1 X0 _ _ _ _ _ _ _ _ _ p).trans ?_
    refine Finset.sum_congr rfl fun n _ => ?_
    rw [show View.ld X3 rB1 (ix3 (0 : Fin 1) (0 : Fin 1) n) = X3 (ix3 (1 : Fin 3) (0 : Fin 1) n) from ld_B X3 1 _ n,
      show View.ld X2 rB1 (ix3 (0 : Fin 1) (0 : Fin 1) n) = X2 (ix3 (1 : Fin 3) (0 : Fin 1) n) from ld_B X2 1 _ n]
    refine congrArg (fun s => X3 (ix3 (1 : Fin 3) (0 : Fin 1) n) * Ideal.tanh (s + X2 (ix3 (1 : Fin 3) (0 : Fin 1) n))) ?_
    exact Finset.sum_congr rfl fun d _ => congrArg (X0 (ix2 p d) * ·) (ld_W X1 1 _ d n)
  | ⟨2, _⟩ =>
    refine (BodyValue.store_row2 X0 _ _ _ _ _ _ _ _ _ p).trans ?_
    refine Finset.sum_congr rfl fun n _ => ?_
    rw [show View.ld X3 rB2 (ix3 (0 : Fin 1) (0 : Fin 1) n) = X3 (ix3 (2 : Fin 3) (0 : Fin 1) n) from ld_B X3 2 _ n,
      show View.ld X2 rB2 (ix3 (0 : Fin 1) (0 : Fin 1) n) = X2 (ix3 (2 : Fin 3) (0 : Fin 1) n) from ld_B X2 2 _ n]
    refine congrArg (fun s => X3 (ix3 (2 : Fin 3) (0 : Fin 1) n) * Ideal.tanh (s + X2 (ix3 (2 : Fin 3) (0 : Fin 1) n))) ?_
    exact Finset.sum_congr rfl fun d _ => congrArg (X0 (ix2 p d) * ·) (ld_W X1 2 _ d n)

end Stored

/-! ## The blocks read off the arrays -/

section Arrays

variable (X : S1000000x3.Idx → Elt Ideal .f32) (A : S3x3x64.Idx → Elt Ideal .f32) (B C : S3x1x64.Idx → Elt Ideal .f32)
  (t : Fin cfg0.N)

/-- The weight block is the weight array. -/
theorem rd1 (k d : Fin 3) (n : Fin 64) : (win0_1.blk t).view.read (Elt Ideal) A (ix3 k d n) = A (ix3 k d n) :=
  Blocks.read_blk1 A t (ix3 k d n)
/-- The bias block is the bias array. -/
theorem rd2 (k : Fin 3) (n : Fin 64) : (win0_2.blk t).view.read (Elt Ideal) B (ix3 k (0 : Fin 1) n) = B (ix3 k (0 : Fin 1) n) :=
  Blocks.read_blk2 B t (ix3 k (0 : Fin 1) n)
/-- The coefficient block is the coefficient array. -/
theorem rd3 (k : Fin 3) (n : Fin 64) : (win0_3.blk t).view.read (Elt Ideal) C (ix3 k (0 : Fin 1) n) = C (ix3 k (0 : Fin 1) n) :=
  Blocks.read_blk3 C t (ix3 k (0 : Fin 1) n)

/-- Row p of the sample staging buffer after the fetch at point t, for p among the rows moved, is row 8192 t + p of the
    sample array, whatever the buffer held before. -/
theorem rd0 (d0 : S8192x3.Idx → Elt Ideal .f32) (p : Fin 8192) (q : Fin 3) (hp : p.val < win0_0.xsize (grid0.coords t) 0)
    (hq : t.val * 8192 + p.val < 1000000) :
    win0_0.fill (grid0.coords t) d0 ((win0_0.blk t).view.read (Elt Ideal) X) (ix2 p q)
      = X (ix2 (⟨t.val * 8192 + p.val, hq⟩ : Fin 1000000) q) :=
  (Blocks.fill_inside t d0 _ p q hp).trans (Blocks.read_blk0 X t (Blocks.xix0 t p q hp))

/-- What the body leaves on the part of the result's staging buffer that is written back at point t, from the blocks
    read off the arrays, is block t of the result as a function of the arrays: column p of the block is column
    8192 t + p of the result, which reads row 8192 t + p of the samples, a row the fetch moved. -/
theorem hcut_arrays (d0 : S8192x3.Idx → Elt Ideal .f32) :
    win0_4.cut (grid0.coords t)
        (out0_4 (win0_0.fill (grid0.coords t) d0 ((win0_0.blk t).view.read (Elt Ideal) X))
          ((win0_1.blk t).view.read (Elt Ideal) A) ((win0_2.blk t).view.read (Elt Ideal) B)
          ((win0_3.blk t).view.read (Elt Ideal) C))
      = (win0_4.blk t).view.read (Elt Ideal) (Gof X A B C) := by
  funext j
  have hk : (j 0).val < 3 := Blocks.row_lt4 t j
  have hp : (j 1).val < win0_0.xsize (grid0.coords t) 0 := lt_of_lt_of_eq (j 1).isLt (Blocks.xs4 t)
  have hp' : (j 1).val < 8192 := lt_of_lt_of_le hp (Blocks.xs0_le t)
  have hq : t.val * 8192 + (j 1).val < 1000000 := Blocks.col_lt4 t j
  refine (Blocks.cut4_apply t _ j).trans ?_
  rw [out0_4_eq]
  refine (stored_apply _ _ _ _ (⟨(j 0).val, hk⟩ : Fin 3) (⟨(j 1).val, hp'⟩ : Fin 8192)).trans ?_
  refine Eq.trans ?_ (Blocks.read_blk4 (F := Ideal) (Gof X A B C) t j).symm
  show _ = ∑ n : Fin 64, C (ix3 (⟨(j 0).val, hk⟩ : Fin 3) (0 : Fin 1) n)
      * Ideal.tanh ((∑ d : Fin 3, X (ix2 (⟨t.val * 8192 + (j 1).val, hq⟩ : Fin 1000000) d) * A (ix3 (⟨(j 0).val, hk⟩ : Fin 3) d n))
          + B (ix3 (⟨(j 0).val, hk⟩ : Fin 3) (0 : Fin 1) n))
  refine Finset.sum_congr rfl fun n _ => ?_
  rw [rd3, rd2]
  refine congrArg (fun s => C (ix3 (⟨(j 0).val, hk⟩ : Fin 3) (0 : Fin 1) n)
      * Ideal.tanh (s + B (ix3 (⟨(j 0).val, hk⟩ : Fin 3) (0 : Fin 1) n))) ?_
  refine Finset.sum_congr rfl fun d _ => ?_
  rw [rd1, rd0 X t d0 (⟨(j 1).val, hp'⟩ : Fin 8192) d hp hq]

end Arrays

/-! ## The body's obligation on the part written back -/

/-- At every point, whatever the fetch left past the sample array's end, the part of the result's staging buffer that
    is written back holds block t of the result array. -/
theorem hcut (c : Dev nD) (t : Fin cfg0.N) (d0 : S8192x3.Idx → Elt Ideal .f32) :
    win0_4.cut (grid0.coords t) (out0_4 (win0_0.fill (grid0.coords t) d0 (iblk m c 0 t)) (iblk m c 1 t) (iblk m c 2 t) (iblk m c 3 t))
      = win0_4.cut (grid0.coords t) (o4 m c t) :=
  (hcut_arrays (V m c main_arg0) (V m c main_v0) (V m c main_v2) (V m c main_v6) t d0).trans (cut_o4 m c t).symm

end Cert.KernelIdeal.BlockValue

end
-- ==== Proof.HostValue.lean ====
/-
  The host operations around the kernel region, read at an entry, over the extended reals.

  Before the region the program lays its arguments out for the kernel: the weights `W : [64, 3, 3]` are transposed
  to `[3, 3, 64]` (entry (k, d, n) is `W[n, k, d]`), the biases `b : [64, 3]` are transposed and given a unit middle
  axis, `[3, 1, 64]` (entry (k, 0, n) is `b[n, k]`), and the three coefficient rows `[1, 64]` are each given a unit
  axis and stacked, `[3, 1, 64]` (entry (k, 0, n) is row `k`'s entry (0, n)). After the region each of the three
  results is one row of the region's `[3, 1000000]` output stood up as a column `[1000000, 1]` (entry (p, 0) of
  result `k` is entry (k, p) of the output).

  Every statement is for an arbitrary assignment of contents to the buffers: each operation is a function of what its
  operands hold, and a layout operation reads, at each entry, one entry of its operand.
-/
import proofs.«110611_j45707041964786_1_alg».proof.Proof.Gen.KernelIdeal.Launch
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.HostValue

open Cert.KernelIdeal Cert.KernelIdeal.Gen Idealize.ShloMosaic Idealize.ShloMosaic.ValueIdx

/-! ## Layout operations of the host stretches, read at an entry

Small lemmas over literal shapes: each says which entry of its operand one layout operation reads. -/

section Reads
variable {α : Type}

/-- The transpose with dimensions [1, 2, 0] of a [64, 3, 3] array holds at (k, d, n) the entry (n, k, d). -/
theorem transpose120_apply (x : S64x3x3.Idx → α) (k d : Fin 3) (n : Fin 64) :
    transpose S3x3x64 [1, 2, 0] x transposes_S64x3x3_S3x3x64_1_2_0 (ix3 k d n) = x (ix3 n k d) :=
  transpose_apply [1, 2, 0] x transposes_S64x3x3_S3x3x64_1_2_0 (ix3 k d n) (ix3 n k d)
    fun b => match b with | ⟨0, _⟩ => rfl | ⟨1, _⟩ => rfl | ⟨2, _⟩ => rfl

/-- The transpose of a [64, 3] matrix holds at (k, n) the entry (n, k). -/
theorem transpose10_apply (x : S64x3.Idx → α) (k : Fin 3) (n : Fin 64) :
    transpose S3x64 [1, 0] x transposes_S64x3_S3x64_1_0 (ix2 k n) = x (ix2 n k) :=
  transpose_apply [1, 0] x transposes_S64x3_S3x64_1_0 (ix2 k n) (ix2 n k)
    fun b => match b with | ⟨0, _⟩ => rfl | ⟨1, _⟩ => rfl

/-- A [3, 64] matrix given a unit middle axis holds at (k, 0, n) the entry (k, n). -/
theorem bcast3x64_apply (x : S3x64.Idx → α) (k : Fin 3) (n : Fin 64) :
    broadcastInDim S3x1x64 ![0, 2] bcast_S3x64_S3x1x64_0_2 x (ix3 k (0 : Fin 1) n) = x (ix2 k n) :=
  broadcastInDim_apply ![0, 2] bcast_S3x64_S3x1x64_0_2 x (ix3 k (0 : Fin 1) n) (ix2 k n)
    fun a => match a with | ⟨0, _⟩ => rfl | ⟨1, _⟩ => rfl

/-- A [1, 64] row given a unit middle axis holds at (0, 0, n) the entry (0, n). -/
theorem bcast1x64_apply (x : S1x64.Idx → α) (n : Fin 64) :
    broadcastInDim S1x1x64 ![1, 2] bcast_S1x64_S1x1x64_1_2 x (ix3 (0 : Fin 1) (0 : Fin 1) n) = x (ix2 (0 : Fin 1) n) :=
  broadcastInDim_apply ![1, 2] bcast_S1x64_S1x1x64_1_2 x (ix3 (0 : Fin 1) (0 : Fin 1) n) (ix2 (0 : Fin 1) n)
    fun a => match a with | ⟨0, _⟩ => rfl | ⟨1, _⟩ => rfl

end Reads

section Reads2
variable {α : Type}

/-- Three [1, 1, 64] pieces stacked along the leading axis. -/
def cat3 (a b c : S1x1x64.Idx → α) : S3x1x64.Idx → α :=
  concatenate S3x1x64 0 [⟨S1x1x64, a⟩, ⟨S1x1x64, b⟩, ⟨S1x1x64, c⟩] concatenates_S1x1x64_S1x1x64_S1x1x64_S3x1x64_d0

/-- The stack holds at (0, 0, n) the first piece's entry (0, 0, n). -/
theorem cat3_apply_0 (a b c : S1x1x64.Idx → α) (n : Fin 64) :
    cat3 a b c (ix3 (0 : Fin 3) (0 : Fin 1) n) = a (ix3 (0 : Fin 1) (0 : Fin 1) n) :=
  concatenate_apply_piece (t := S3x1x64) 0 [⟨S1x1x64, a⟩, ⟨S1x1x64, b⟩, ⟨S1x1x64, c⟩]
    concatenates_S1x1x64_S1x1x64_S1x1x64_S3x1x64_d0 (ix3 (0 : Fin 3) (0 : Fin 1) n)
    0 (by show 0 < 3; omega) S1x1x64 a rfl rfl 0 rfl (ix3 (0 : Fin 1) (0 : Fin 1) n)
    (fun b hb => match b, hb with | ⟨0, _⟩, hb => absurd rfl hb | ⟨1, _⟩, _ => rfl | ⟨2, _⟩, _ => rfl) rfl

/-- The stack holds at (1, 0, n) the second piece's entry (0, 0, n). -/
theorem cat3_apply_1 (a b c : S1x1x64.Idx → α) (n : Fin 64) :
    cat3 a b c (ix3 (1 : Fin 3) (0 : Fin 1) n) = b (ix3 (0 : Fin 1) (0 : Fin 1) n) :=
  concatenate_apply_piece (t := S3x1x64) 0 [⟨S1x1x64, a⟩, ⟨S1x1x64, b⟩, ⟨S1x1x64, c⟩]
    concatenates_S1x1x64_S1x1x64_S1x1x64_S3x1x64_d0 (ix3 (1 : Fin 3) (0 : Fin 1) n)
    1 (by show 1 < 3; omega) S1x1x64 b rfl rfl 1 rfl (ix3 (0 : Fin 1) (0 : Fin 1) n)
    (fun b hb => match b, hb with | ⟨0, _⟩, hb => absurd rfl hb | ⟨1, _⟩, _ => rfl | ⟨2, _⟩, _ => rfl) rfl

/-- The stack holds at (2, 0, n) the third piece's entry (0, 0, n). -/
theorem cat3_apply_2 (a b c : S1x1x64.Idx → α) (n : Fin 64) :
    cat3 a b c (ix3 (2 : Fin 3) (0 : Fin 1) n) = c (ix3 (0 : Fin 1) (0 : Fin 1) n) :=
  concatenate_apply_piece (t := S3x1x64) 0 [⟨S1x1x64, a⟩, ⟨S1x1x64, b⟩, ⟨S1x1x64, c⟩]
    concatenates_S1x1x64_S1x1x64_S1x1x64_S3x1x64_d0 (ix3 (2 : Fin 3) (0 : Fin 1) n)
    2 (by show 2 < 3; omega) S1x1x64 c rfl rfl 2 rfl (ix3 (0 : Fin 1) (0 : Fin 1) n)
    (fun b hb => match b, hb with | ⟨0, _⟩, hb => absurd rfl hb | ⟨1, _⟩, _ => rfl | ⟨2, _⟩, _ => rfl) rfl

/-- Row `r` of a [3, 1000000] array, sliced out as [1, 1000000], flattened to [1000000] and stood up as a column
    [1000000, 1], holds at (p, 0) the entry (r, p). -/
theorem column_of_row_apply (x : S3x1000000.Idx → α) (r : Fin 3) (off : Fin 2 → Nat) (hoff : off = ![r.val, 0])
    (h : S3x1000000.Slices off S1x1000000) (p : Fin 1000000) :
    shapeCast S1000000x1 (shapeCast S1000000 (extractStridedSlice S1x1000000 off x h) shapeCasts_S1x1000000_S1000000)
        shapeCasts_S1000000_S1000000x1 (ix2 p (0 : Fin 1)) = x (ix2 r p) := by
  subst hoff
  refine (shapeCast_apply _ shapeCasts_S1000000_S1000000x1 (ix2 p (0 : Fin 1)) (ix1 p) ?_).trans ?_
  · rw [Shape.rowMajor_val_one, Shape.rowMajor_val_two]
    show p.val = p.val * 1 + 0
    omega
  refine (shapeCast_apply _ shapeCasts_S1x1000000_S1000000 (ix1 p) (ix2 (0 : Fin 1) p) ?_).trans ?_
  · rw [Shape.rowMajor_val_one, Shape.rowMajor_val_two]
    show 0 * 1000000 + p.val = p.val
    omega
  exact extractStridedSlice_apply _ x h (ix2 (0 : Fin 1) p) (ix2 r p)
    fun a => match a with
      | ⟨0, _⟩ => by show r.val = r.val + 0; omega
      | ⟨1, _⟩ => by show p.val = 0 + p.val; omega

end Reads2

/-! ## Each stretch's buffers as terms of what was there before -/

/-- After the first stretch the transposed weights are the transpose of the weights. -/
theorem stage_v0 (W : Valuation τ sig (Elt Ideal)) :
    (StableHlo.after (hostOps0 (F := Ideal)) W (Proc.devRef .tc main_v0) : S3x3x64.Idx → EReal)
      = transpose S3x3x64 [1, 2, 0] (W (Proc.devRef .tc main_arg1) : S64x3x3.Idx → EReal) transposes_S64x3x3_S3x3x64_1_2_0 := by
  after_results
  all_goals rfl

/-- After the first stretch the laid-out biases are the transpose of the biases with a unit middle axis. -/
theorem stage_v2 (W : Valuation τ sig (Elt Ideal)) :
    (StableHlo.after (hostOps0 (F := Ideal)) W (Proc.devRef .tc main_v2) : S3x1x64.Idx → EReal)
      = broadcastInDim S3x1x64 ![0, 2] bcast_S3x64_S3x1x64_0_2
          (transpose S3x64 [1, 0] (W (Proc.devRef .tc main_arg2) : S64x3.Idx → EReal) transposes_S64x3_S3x64_1_0) := by
  after_results
  all_goals rfl

/-- What the three-way concatenation leaves in its result: the stack of what its three operands hold. -/
theorem nary3_result (V : Valuation τ sig (Elt Ideal)) (h1 h2) :
    (StableHlo.nary ![main_v3, main_v4, main_v5] main_v6
        (fun u => concatenate S3x1x64 0 [⟨S1x1x64, u 0⟩, ⟨S1x1x64, u 1⟩, ⟨S1x1x64, u 2⟩] concatenates_S1x1x64_S1x1x64_S1x1x64_S3x1x64_d0) h1 h2
        : HloOp τ sig (Elt Ideal)).result V (Proc.devRef .tc main_v6)
      = cat3 (α := EReal) (V (Proc.devRef .tc main_v3)) (V (Proc.devRef .tc main_v4)) (V (Proc.devRef .tc main_v5)) := by
  rw [StableHlo.nary_result]; rfl

/-- After the first stretch the stacked coefficients are the stack of the three coefficient rows, each with a unit
    axis. -/
theorem stage_v6 (W : Valuation τ sig (Elt Ideal)) :
    (StableHlo.after (hostOps0 (F := Ideal)) W (Proc.devRef .tc main_v6) : S3x1x64.Idx → EReal)
      = cat3 (broadcastInDim S1x1x64 ![1, 2] bcast_S1x64_S1x1x64_1_2 (W (Proc.devRef .tc main_arg3) : S1x64.Idx → EReal))
          (broadcastInDim S1x1x64 ![1, 2] bcast_S1x64_S1x1x64_1_2 (W (Proc.devRef .tc main_arg4) : S1x64.Idx → EReal))
          (broadcastInDim S1x1x64 ![1, 2] bcast_S1x64_S1x1x64_1_2 (W (Proc.devRef .tc main_arg5) : S1x64.Idx → EReal)) := by
  simp only [StableHlo.after_cons, StableHlo.after_nil]
  rw [nary3_result]
  repeat (first | rw [StableHlo.unary_result] | (rw [StableHlo.unary_result_ne]; rotate_left; decide))
  all_goals rfl

/-- After the last stretch result 0 is row 0 of the region's output, flattened and stood up as a column. -/
theorem stage_v10 (W : Valuation τ sig (Elt Ideal)) :
    (StableHlo.after (hostOps1 (F := Ideal)) W (Proc.devRef .tc main_v10) : S1000000x1.Idx → EReal)
      = shapeCast S1000000x1 (shapeCast S1000000 (extractStridedSlice S1x1000000 ![0, 0] (W (Proc.devRef .tc main_v7) : S3x1000000.Idx → EReal) slices_S3x1000000_S1x1000000_0_0) shapeCasts_S1x1000000_S1000000) shapeCasts_S1000000_S1000000x1 := by
  after_results
  all_goals rfl

/-- After the last stretch result 1 is row 1 of the region's output, flattened and stood up as a column. -/
theorem stage_v13 (W : Valuation τ sig (Elt Ideal)) :
    (StableHlo.after (hostOps1 (F := Ideal)) W (Proc.devRef .tc main_v13) : S1000000x1.Idx → EReal)
      = shapeCast S1000000x1 (shapeCast S1000000 (extractStridedSlice S1x1000000 ![1, 0] (W (Proc.devRef .tc main_v7) : S3x1000000.Idx → EReal) slices_S3x1000000_S1x1000000_1_0) shapeCasts_S1x1000000_S1000000) shapeCasts_S1000000_S1000000x1 := by
  after_results
  all_goals rfl

/-- After the last stretch result 2 is row 2 of the region's output, flattened and stood up as a column. -/
theorem stage_v16 (W : Valuation τ sig (Elt Ideal)) :
    (StableHlo.after (hostOps1 (F := Ideal)) W (Proc.devRef .tc main_v16) : S1000000x1.Idx → EReal)
      = shapeCast S1000000x1 (shapeCast S1000000 (extractStridedSlice S1x1000000 ![2, 0] (W (Proc.devRef .tc main_v7) : S3x1000000.Idx → EReal) slices_S3x1000000_S1x1000000_2_0) shapeCasts_S1x1000000_S1000000) shapeCasts_S1000000_S1000000x1 := by
  after_results
  all_goals rfl

/-! ## The buffers the region reads, and the results, at an entry -/

/-- The transposed weights hold at (k, d, n) the weight (n, k, d). -/
theorem pre_v0 (W : Valuation τ sig (Elt Ideal)) (k d : Fin 3) (n : Fin 64) :
    (StableHlo.after (hostOps0 (F := Ideal)) W (Proc.devRef .tc main_v0) : S3x3x64.Idx → EReal) (ix3 k d n)
      = (W (Proc.devRef .tc main_arg1) : S64x3x3.Idx → EReal) (ix3 n k d) := by
  rw [stage_v0]; exact transpose120_apply _ k d n

/-- The laid-out biases hold at (k, 0, n) the bias (n, k). -/
theorem pre_v2 (W : Valuation τ sig (Elt Ideal)) (k : Fin 3) (n : Fin 64) :
    (StableHlo.after (hostOps0 (F := Ideal)) W (Proc.devRef .tc main_v2) : S3x1x64.Idx → EReal) (ix3 k (0 : Fin 1) n)
      = (W (Proc.devRef .tc main_arg2) : S64x3.Idx → EReal) (ix2 n k) := by
  rw [stage_v2, bcast3x64_apply]; exact transpose10_apply _ k n

/-- The stacked coefficients hold at (0, 0, n) the entry (0, n) of coefficient row 0. -/
theorem pre_v6_0 (W : Valuation τ sig (Elt Ideal)) (n : Fin 64) :
    (StableHlo.after (hostOps0 (F := Ideal)) W (Proc.devRef .tc main_v6) : S3x1x64.Idx → EReal) (ix3 (0 : Fin 3) (0 : Fin 1) n)
      = (W (Proc.devRef .tc main_arg3) : S1x64.Idx → EReal) (ix2 (0 : Fin 1) n) := by
  rw [stage_v6, cat3_apply_0]; exact bcast1x64_apply _ n

/-- The stacked coefficients hold at (1, 0, n) the entry (0, n) of coefficient row 1. -/
theorem pre_v6_1 (W : Valuation τ sig (Elt Ideal)) (n : Fin 64) :
    (StableHlo.after (hostOps0 (F := Ideal)) W (Proc.devRef .tc main_v6) : S3x1x64.Idx → EReal) (ix3 (1 : Fin 3) (0 : Fin 1) n)
      = (W (Proc.devRef .tc main_arg4) : S1x64.Idx → EReal) (ix2 (0 : Fin 1) n) := by
  rw [stage_v6, cat3_apply_1]; exact bcast1x64_apply _ n

/-- The stacked coefficients hold at (2, 0, n) the entry (0, n) of coefficient row 2. -/
theorem pre_v6_2 (W : Valuation τ sig (Elt Ideal)) (n : Fin 64) :
    (StableHlo.after (hostOps0 (F := Ideal)) W (Proc.devRef .tc main_v6) : S3x1x64.Idx → EReal) (ix3 (2 : Fin 3) (0 : Fin 1) n)
      = (W (Proc.devRef .tc main_arg5) : S1x64.Idx → EReal) (ix2 (0 : Fin 1) n) := by
  rw [stage_v6, cat3_apply_2]; exact bcast1x64_apply _ n

/-- Result 0 holds at (p, 0) the entry (0, p) of the region's output. -/
theorem tail_v10 (W : Valuation τ sig (Elt Ideal)) (p : Fin 1000000) :
    (StableHlo.after (hostOps1 (F := Ideal)) W (Proc.devRef .tc main_v10) : S1000000x1.Idx → EReal) (ix2 p (0 : Fin 1))
      = (W (Proc.devRef .tc main_v7) : S3x1000000.Idx → EReal) (ix2 (0 : Fin 3) p) := by
  rw [stage_v10]; exact column_of_row_apply _ (0 : Fin 3) _ rfl _ p

/-- Result 1 holds at (p, 0) the entry (1, p) of the region's output. -/
theorem tail_v13 (W : Valuation τ sig (Elt Ideal)) (p : Fin 1000000) :
    (StableHlo.after (hostOps1 (F := Ideal)) W (Proc.devRef .tc main_v13) : S1000000x1.Idx → EReal) (ix2 p (0 : Fin 1))
      = (W (Proc.devRef .tc main_v7) : S3x1000000.Idx → EReal) (ix2 (1 : Fin 3) p) := by
  rw [stage_v13]; exact column_of_row_apply _ (1 : Fin 3) _ rfl _ p

/-- Result 2 holds at (p, 0) the entry (2, p) of the region's output. -/
theorem tail_v16 (W : Valuation τ sig (Elt Ideal)) (p : Fin 1000000) :
    (StableHlo.after (hostOps1 (F := Ideal)) W (Proc.devRef .tc main_v16) : S1000000x1.Idx → EReal) (ix2 p (0 : Fin 1))
      = (W (Proc.devRef .tc main_v7) : S3x1000000.Idx → EReal) (ix2 (2 : Fin 3) p) := by
  rw [stage_v16]; exact column_of_row_apply _ (2 : Fin 3) _ rfl _ p

end Cert.KernelIdeal.HostValue

end
-- ==== Proof.KValue.lean ====
/-
  The kernel program's run with its three results named, at the extended reals: each ends holding the column of its
  head, `Cert.Spec.column` of the argument arrays.

  The region's result array ends holding `Gfull` (every column is in the block of exactly the point that owns it, and
  each point writes back block `t` of `Gfull`); the operations after the region cut row k out of it and reshape it to
  a column, so result k at (p, 0) is `Gfull` at (k, p); and the arrays the region finds are the arguments re-laid
  (A[k, d, n] = W[n, k, d], B[k, 0, n] = b[n, k], C[k, 0, n] = c_k[0, n]), so that entry is head k at sample p.
-/
import proofs.«110611_j45707041964786_1_alg».proof.Proof.KFrame
import proofs.«110611_j45707041964786_1_alg».proof.Proof.Spec
import proofs.«110611_j45707041964786_1_alg».proof.Proof.BlockValue
import proofs.«110611_j45707041964786_1_alg».proof.Proof.Blocks
import proofs.«110611_j45707041964786_1_alg».proof.Proof.HostValue
import Idealize.ShloMosaic.Lib.Pipeline.Value
import Idealize.ShloMosaic.Lib.ValueIdx

set_option maxRecDepth 16384

noncomputable section

open scoped BigOperators

namespace Cert.KernelIdeal.KValue

open Cert.KernelIdeal Cert.KernelIdeal.Gen Cert.KernelIdeal.Hand Cert.KernelIdeal.BlockValue
open Idealize.ShloMosaic Idealize.ShloMosaic.TcCoe Idealize.ShloMosaic.ValueIdx Idealize.SL.Sem
open Idealize.ShloMosaic.Rounds
open Idealize.ShloMosaic.Pipeline (Dat Cfg Window)

variable (m : (ℓ : Loc nD τ sig) → Buf (Elt Ideal) ℓ) (ρ : Dev nD → PrngReg)

/-! ## The result array after the region -/

/-- Point `t` writes back block `t` of `Gfull`. -/
theorem flushed4 (c : Dev nD) (t : Fin cfg0.N) :
    (dats m (o4 m) 0 c).flushed 4 t = ((cfg0.win 4).blk t).view.read (Elt Ideal) (Gfull m c) := by
  show (cfg0.win 4).cut (cfg0.grid.coords t) ((dats m (o4 m) 0 c).after 4 t) = _
  rw [after0_4]; exact cut_o4 m c t

/-- Every column lies in some point's block, so after the last write-back the result array holds `Gfull`. -/
theorem final4 (c : Dev nD) : (dats m (o4 m) 0 c).arrAt 4 cfg0.N = Gfull m c :=
  (dats m (o4 m) 0 c).arrAt_eq_of_cover 4 (Gfull m c) (fun t _ => flushed4 m c t) Cert.KernelIdeal.Blocks.cover4

/-! ## The arrays the region finds, entry by entry -/

theorem Vv0 (c : Dev nD) (k d : Fin 3) (n : Fin 64) :
    V m c main_v0 (ix3 k d n) = m ((c : Thread nD τ).loc main_arg1) (ix3 n k d) := by
  show StableHlo.after (List.flatten [hostOps0]) (fun b => m (c, b)) (Proc.devRef .tc main_v0) (ix3 k d n) = _
  simp only [List.flatten_cons, List.flatten_nil, List.append_nil]
  exact Cert.KernelIdeal.HostValue.pre_v0 _ k d n
theorem Vv2 (c : Dev nD) (k : Fin 3) (n : Fin 64) :
    V m c main_v2 (ix3 k (0 : Fin 1) n) = m ((c : Thread nD τ).loc main_arg2) (ix2 n k) := by
  show StableHlo.after (List.flatten [hostOps0]) (fun b => m (c, b)) (Proc.devRef .tc main_v2) (ix3 k (0 : Fin 1) n) = _
  simp only [List.flatten_cons, List.flatten_nil, List.append_nil]
  exact Cert.KernelIdeal.HostValue.pre_v2 _ k n
theorem Vv6_0 (c : Dev nD) (n : Fin 64) :
    V m c main_v6 (ix3 (0 : Fin 3) (0 : Fin 1) n) = m ((c : Thread nD τ).loc main_arg3) (ix2 (0 : Fin 1) n) := by
  show StableHlo.after (List.flatten [hostOps0]) (fun b => m (c, b)) (Proc.devRef .tc main_v6) (ix3 (0 : Fin 3) (0 : Fin 1) n) = _
  simp only [List.flatten_cons, List.flatten_nil, List.append_nil]
  exact Cert.KernelIdeal.HostValue.pre_v6_0 _ n
theorem Vv6_1 (c : Dev nD) (n : Fin 64) :
    V m c main_v6 (ix3 (1 : Fin 3) (0 : Fin 1) n) = m ((c : Thread nD τ).loc main_arg4) (ix2 (0 : Fin 1) n) := by
  show StableHlo.after (List.flatten [hostOps0]) (fun b => m (c, b)) (Proc.devRef .tc main_v6) (ix3 (1 : Fin 3) (0 : Fin 1) n) = _
  simp only [List.flatten_cons, List.flatten_nil, List.append_nil]
  exact Cert.KernelIdeal.HostValue.pre_v6_1 _ n
theorem Vv6_2 (c : Dev nD) (n : Fin 64) :
    V m c main_v6 (ix3 (2 : Fin 3) (0 : Fin 1) n) = m ((c : Thread nD τ).loc main_arg5) (ix2 (0 : Fin 1) n) := by
  show StableHlo.after (List.flatten [hostOps0]) (fun b => m (c, b)) (Proc.devRef .tc main_v6) (ix3 (2 : Fin 3) (0 : Fin 1) n) = _
  simp only [List.flatten_cons, List.flatten_nil, List.append_nil]
  exact Cert.KernelIdeal.HostValue.pre_v6_2 _ n

/-- Entry (k, p) of the result function is head k at sample p, when the laid-out parameters are the arguments re-laid:
    A[k, d, n] = W[n, k, d], B[k, 0, n] = b[n, k], C[k, 0, n] = ck[0, n]. -/
theorem Gof_head (X : S1000000x3.Idx → EReal) (A : S3x3x64.Idx → EReal) (B C : S3x1x64.Idx → EReal)
    (x : (⟨2, ![1000000, 3]⟩ : Shape).Idx → EReal) (W : (⟨3, ![64, 3, 3]⟩ : Shape).Idx → EReal)
    (b : (⟨2, ![64, 3]⟩ : Shape).Idx → EReal) (ck : (⟨2, ![1, 64]⟩ : Shape).Idx → EReal) (k : Fin 3) (p : Fin 1000000)
    (hX : X = x) (hA : ∀ (d : Fin 3) (n : Fin 64), A (ix3 k d n) = W (ix3 n k d))
    (hB : ∀ n : Fin 64, B (ix3 k (0 : Fin 1) n) = b (ix2 n k)) (hC : ∀ n : Fin 64, C (ix3 k (0 : Fin 1) n) = ck (ix2 (0 : Fin 1) n)) :
    Gof X A B C (ix2 k p) = Cert.Spec.head x W b ck k p := by
  subst hX
  unfold Gof Cert.Spec.head Cert.Spec.pre
  refine Finset.sum_congr rfl fun n _ => ?_
  show C (ix3 k (0 : Fin 1) n) * Ideal.tanh ((∑ d : Fin 3, X (ix2 p d) * A (ix3 k d n)) + B (ix3 k (0 : Fin 1) n)) = _
  rw [hC n, hB n]
  simp only [hA]

/-- Entry (k, p) of `Gfull` is head k at sample p, given the coefficient row the region finds in row k of C. -/
theorem Gfull_apply (c : Dev nD) (k : Fin 3) (p : Fin 1000000) (ck : (⟨2, ![1, 64]⟩ : Shape).Idx → EReal)
    (hC : ∀ n : Fin 64, V m c main_v6 (ix3 k (0 : Fin 1) n) = ck (ix2 (0 : Fin 1) n)) :
    (Gfull m c : S3x1000000.Idx → EReal) (ix2 k p) = Cert.Spec.head (m ((c : Thread nD τ).loc main_arg0)) (m ((c : Thread nD τ).loc main_arg1))
      (m ((c : Thread nD τ).loc main_arg2)) ck k p := by
  show Gof (V m c main_arg0) (V m c main_v0) (V m c main_v2) (V m c main_v6) (ix2 k p) = _
  exact Gof_head (V m c main_arg0) (V m c main_v0) (V m c main_v2) (V m c main_v6) _ _ _ ck k p
    (V_main_arg0 m c) (fun d n => Vv0 m c k d n) (fun n => Vv2 m c k n) hC

/-! ## The three results -/

/-- What the operations after the region leave in a buffer, from the region's exit contents. -/
abbrev exitVal (c : Dev nD) : Valuation τ sig (Elt Ideal) :=
  Pipeline.withArrays spec0 c (V0 m c) fun w => (dats m (o4 m) 0 c).arrAt w cfg0.N

theorem exit_v7 (c : Dev nD) : exitVal m c (Proc.devRef .tc main_v7) = Gfull m c :=
  (Pipeline.withArrays_arr spec0 launch0.win.arr_inj c _ _ 4).trans (final4 m c)

theorem res_v10 (c : Dev nD) : Pipeline.afterTail₀ cfgs (dats m (o4 m)) 0 (V0 m) [hostOps1] c main_v10
    = Cert.Spec.column (m ((c : Thread nD τ).loc main_arg0)) (m ((c : Thread nD τ).loc main_arg1))
        (m ((c : Thread nD τ).loc main_arg2)) (m ((c : Thread nD τ).loc main_arg3)) 0 := by
  funext i
  obtain ⟨p, q, rfl⟩ : ∃ (p : Fin 1000000) (q : Fin 1), i = ix2 p q := ⟨i 0, i 1, eq_ix2 i⟩
  obtain rfl : q = 0 := Subsingleton.elim _ _
  unfold Pipeline.afterTail₀
  show StableHlo.after (List.flatten [hostOps1]) (exitVal m c) (Proc.devRef .tc main_v10) (ix2 p (0 : Fin 1)) = _
  simp only [List.flatten_cons, List.flatten_nil, List.append_nil]
  rw [Cert.KernelIdeal.HostValue.tail_v10, exit_v7]
  exact Gfull_apply m c 0 p _ (Vv6_0 m c)

theorem res_v13 (c : Dev nD) : Pipeline.afterTail₀ cfgs (dats m (o4 m)) 0 (V0 m) [hostOps1] c main_v13
    = Cert.Spec.column (m ((c : Thread nD τ).loc main_arg0)) (m ((c : Thread nD τ).loc main_arg1))
        (m ((c : Thread nD τ).loc main_arg2)) (m ((c : Thread nD τ).loc main_arg4)) 1 := by
  funext i
  obtain ⟨p, q, rfl⟩ : ∃ (p : Fin 1000000) (q : Fin 1), i = ix2 p q := ⟨i 0, i 1, eq_ix2 i⟩
  obtain rfl : q = 0 := Subsingleton.elim _ _
  unfold Pipeline.afterTail₀
  show StableHlo.after (List.flatten [hostOps1]) (exitVal m c) (Proc.devRef .tc main_v13) (ix2 p (0 : Fin 1)) = _
  simp only [List.flatten_cons, List.flatten_nil, List.append_nil]
  rw [Cert.KernelIdeal.HostValue.tail_v13, exit_v7]
  exact Gfull_apply m c 1 p _ (Vv6_1 m c)

theorem res_v16 (c : Dev nD) : Pipeline.afterTail₀ cfgs (dats m (o4 m)) 0 (V0 m) [hostOps1] c main_v16
    = Cert.Spec.column (m ((c : Thread nD τ).loc main_arg0)) (m ((c : Thread nD τ).loc main_arg1))
        (m ((c : Thread nD τ).loc main_arg2)) (m ((c : Thread nD τ).loc main_arg5)) 2 := by
  funext i
  obtain ⟨p, q, rfl⟩ : ∃ (p : Fin 1000000) (q : Fin 1), i = ix2 p q := ⟨i 0, i 1, eq_ix2 i⟩
  obtain rfl : q = 0 := Subsingleton.elim _ _
  unfold Pipeline.afterTail₀
  show StableHlo.after (List.flatten [hostOps1]) (exitVal m c) (Proc.devRef .tc main_v16) (ix2 p (0 : Fin 1)) = _
  simp only [List.flatten_cons, List.flatten_nil, List.append_nil]
  rw [Cert.KernelIdeal.HostValue.tail_v16, exit_v7]
  exact Gfull_apply m c 2 p _ (Vv6_2 m c)

/-! ## The run -/

/-- The frame run at the extended reals, with the result's staging contents named by `o4`. -/
theorem run_main_ideal : θ_run defs (onTc (τ := τ) (main (F := Ideal))) (s₀ m ρ)
    (Pipeline.FramePost cfgs (dats m (o4 m)) 0 (Pipeline.afterTail₀ cfgs (dats m (o4 m)) 0 (V0 m) [hostOps1])) :=
  run_main m ρ (o4 m) (hcut m)

/-- Every weakly fair execution of the kernel program at the extended reals terminates with result k at the column of
    head k of the argument arrays, and the arguments unchanged. -/
theorem run_value : θ_run defs (onTc (τ := τ) (main (F := Ideal))) ⟨m, fun _ => 0, ρ⟩ (fun r => ∀ c : Dev nD,
      r.2.mem ((c.tc : Thread nD τ).loc main_v10) = Cert.Spec.column (m ((c : Thread nD τ).loc main_arg0)) (m ((c : Thread nD τ).loc main_arg1)) (m ((c : Thread nD τ).loc main_arg2)) (m ((c : Thread nD τ).loc main_arg3)) 0
      ∧ r.2.mem ((c.tc : Thread nD τ).loc main_v13) = Cert.Spec.column (m ((c : Thread nD τ).loc main_arg0)) (m ((c : Thread nD τ).loc main_arg1)) (m ((c : Thread nD τ).loc main_arg2)) (m ((c : Thread nD τ).loc main_arg4)) 1
      ∧ r.2.mem ((c.tc : Thread nD τ).loc main_v16) = Cert.Spec.column (m ((c : Thread nD τ).loc main_arg0)) (m ((c : Thread nD τ).loc main_arg1)) (m ((c : Thread nD τ).loc main_arg2)) (m ((c : Thread nD τ).loc main_arg5)) 2
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_v10 (Pipeline.mem_restRefs_of main_v10 (by decide) (by decide))).trans (res_v10 m c),
      ((h c).2 main_v13 (Pipeline.mem_restRefs_of main_v13 (by decide) (by decide))).trans (res_v13 m c),
      ((h c).2 main_v16 (Pipeline.mem_restRefs_of main_v16 (by decide) (by decide))).trans (res_v16 m c),
      ((h c).1 0).trans (((dats m (o4 m) 0 c).arrAt_in 0 rfl _).trans ((A_eq m (o4 m) c 0).trans (V_main_arg0 m c))),
      ((h c).2 main_arg1 (Pipeline.mem_restRefs_of main_arg1 (by decide) (by decide))).trans (W_main_arg1 m (dats m (o4 m)) c),
      ((h c).2 main_arg2 (Pipeline.mem_restRefs_of main_arg2 (by decide) (by decide))).trans (W_main_arg2 m (dats m (o4 m)) c),
      ((h c).2 main_arg3 (Pipeline.mem_restRefs_of main_arg3 (by decide) (by decide))).trans (W_main_arg3 m (dats m (o4 m)) c),
      ((h c).2 main_arg4 (Pipeline.mem_restRefs_of main_arg4 (by decide) (by decide))).trans (W_main_arg4 m (dats m (o4 m)) c),
      ((h c).2 main_arg5 (Pipeline.mem_restRefs_of main_arg5 (by decide) (by decide))).trans (W_main_arg5 m (dats m (o4 m)) c)⟩)
    (run_main_ideal m ρ)

end Cert.KernelIdeal.KValue

end
-- ==== Proof.RefValue.lean ====
import proofs.«110611_j45707041964786_1_alg».proof.Proof.Gen.ReferenceIdeal.Read
import proofs.«110611_j45707041964786_1_alg».proof.Proof.Spec

/-!
  The reference computes `Cert.Spec.column`.

  Each of the reference's three results is a column `[1000000, 1]`. At the entry `(p, 0)` of head `k` the reference
  contracts the feature axis, `∑ d, x[p, d] · W[n, k', d]` for every layer `n` and channel `k'`, adds the bias
  `b[n, k']`, applies `tanh`, keeps the channel `k' = k`, and contracts the layer axis against the transposed
  coefficient row:
      ∑ n, tanh (∑ d, x[p, d] · W[n, k, d] + b[n, k]) · ck[0, n].
  This is `Cert.Spec.head x W b ck k p` with the two factors of the outer product in the other order
  (`Cert.Spec.head_comm`). The proof reads the result one operation at a time down to the arguments; what is left
  is to identify the composed index functions of the layout operations (slice, reshape, broadcast, transpose) with
  the coordinates `(p, d)`, `(n, k, d)`, `(n, k)`, `(0, n)`: the reshape `[1000000, 64, 1] → [1000000, 64]` reads
  the flat position `p · 64 + n`, whose quotient and remainder by `64` are `p` and `n`.
-/

noncomputable section

open scoped BigOperators

namespace Cert.ReferenceIdeal.RefValue

open Cert.ReferenceIdeal Cert.ReferenceIdeal.Gen Cert.ReferenceIdeal.Read Idealize.ShloMosaic Idealize.ShloMosaic.ValueIdx
  Idealize.ShloMosaic.TcCoe Idealize.SL.Sem Idealize.ShloMosaic.StableHlo

/-! ## Head 0 -/

/-- Head 0: the activation read for layer `n` at sample `p` takes its left factors from the row `x[p, :]`. -/
theorem lidx_head0 (p : Fin 1000000) (q : Fin 1) (n : Fin 64) (d : Fin 3) :
    lidx_main_v0 (idx_main_v5 (idx_main_v6 (lidx_main_v12 (ix2 p q) n))) d = ix2 p d :=
  funext fun a => Fin.ext (by
    match a with
    | ⟨0, _⟩ => show (p.val * 64 + n.val) / 64 = p.val; have := n.isLt; omega
    | ⟨1, _⟩ => rfl)

/-- Head 0: the same activation takes its right factors from `W[n, 0, :]`. -/
theorem ridx_head0 (p : Fin 1000000) (q : Fin 1) (n : Fin 64) (d : Fin 3) :
    ridx_main_v0 (idx_main_v5 (idx_main_v6 (lidx_main_v12 (ix2 p q) n))) d = ix3 n (0 : Fin 3) d :=
  funext fun a => Fin.ext (by
    match a with
    | ⟨0, _⟩ => show (p.val * 64 + n.val) / 1 % 64 = n.val; have := n.isLt; omega
    | ⟨1, _⟩ => rfl
    | ⟨2, _⟩ => rfl)

/-- Head 0: the same activation's bias is `b[n, 0]`. -/
theorem bidx_head0 (p : Fin 1000000) (q : Fin 1) (n : Fin 64) :
    idx_main_v1 (idx_main_v2 (idx_main_v5 (idx_main_v6 (lidx_main_v12 (ix2 p q) n)))) = ix2 n (0 : Fin 3) :=
  funext fun a => Fin.ext (by
    match a with
    | ⟨0, _⟩ => show (p.val * 64 + n.val) / 1 % 64 = n.val; have := n.isLt; omega
    | ⟨1, _⟩ => rfl)

/-- Head 0: the transposed coefficient column at `(n, 0)` is the coefficient row at `(0, n)`. -/
theorem cidx_head0 (p : Fin 1000000) (q : Fin 1) (n : Fin 64) :
    idx_main_v11 (ridx_main_v12 (ix2 p q) n) = ix2 (0 : Fin 1) n :=
  funext fun a => Fin.ext (by
    match a with
    | ⟨0, _⟩ => show q.val = 0; have := q.isLt; omega
    | ⟨1, _⟩ => rfl)

/-- The reference's first result is head 0 as a column: at `(p, 0)` it is
    `∑ n, tanh (∑ d, x[p, d] · W[n, 0, d] + b[n, 0]) · c[0, n]`, the specification's sum with the factors of each
    term commuted. -/
theorem ref_v12 (x0 : (⟨S1000000x3, .f32⟩ : BufTy).Contents (Elt Ideal)) (x1 : (⟨S64x3x3, .f32⟩ : BufTy).Contents (Elt Ideal)) (x2 : (⟨S64x3, .f32⟩ : BufTy).Contents (Elt Ideal)) (x3 : (⟨S1x64, .f32⟩ : BufTy).Contents (Elt Ideal)) :
    Cert.ReferenceIdeal.Read.val_main_v12 (F := Ideal) x0 x1 x2 x3 = Cert.Spec.column x0 x1 x2 x3 0 := by
  funext i
  obtain ⟨p, q, rfl⟩ : ∃ (p : Fin 1000000) (q : Fin 1), i = ix2 p q := ⟨i 0, i 1, eq_ix2 i⟩
  rw [val_main_v12_apply]
  show _ = Cert.Spec.head x0 x1 x2 x3 0 p
  rw [Cert.Spec.head_comm]
  refine Finset.sum_congr rfl fun n _ => ?_
  rw [val_main_v6_apply, val_main_v5_apply, val_main_v4_apply, val_main_v3_apply, val_main_v0_apply,
    val_main_v2_apply, val_main_v1_apply, val_main_v11_apply]
  simp only [lidx_head0, ridx_head0, bidx_head0, cidx_head0, Ideal.hostUnary_tanh_def, Ideal.addf_def]
  rfl

/-! ## Head 1 -/

/-- Head 1: the activation read for layer `n` at sample `p` takes its left factors from the row `x[p, :]`. -/
theorem lidx_head1 (p : Fin 1000000) (q : Fin 1) (n : Fin 64) (d : Fin 3) :
    lidx_main_v0 (idx_main_v7 (idx_main_v8 (lidx_main_v14 (ix2 p q) n))) d = ix2 p d :=
  funext fun a => Fin.ext (by
    match a with
    | ⟨0, _⟩ => show (p.val * 64 + n.val) / 64 = p.val; have := n.isLt; omega
    | ⟨1, _⟩ => rfl)

/-- Head 1: the same activation takes its right factors from `W[n, 1, :]`. -/
theorem ridx_head1 (p : Fin 1000000) (q : Fin 1) (n : Fin 64) (d : Fin 3) :
    ridx_main_v0 (idx_main_v7 (idx_main_v8 (lidx_main_v14 (ix2 p q) n))) d = ix3 n (1 : Fin 3) d :=
  funext fun a => Fin.ext (by
    match a with
    | ⟨0, _⟩ => show (p.val * 64 + n.val) / 1 % 64 = n.val; have := n.isLt; omega
    | ⟨1, _⟩ => rfl
    | ⟨2, _⟩ => rfl)

/-- Head 1: the same activation's bias is `b[n, 1]`. -/
theorem bidx_head1 (p : Fin 1000000) (q : Fin 1) (n : Fin 64) :
    idx_main_v1 (idx_main_v2 (idx_main_v7 (idx_main_v8 (lidx_main_v14 (ix2 p q) n)))) = ix2 n (1 : Fin 3) :=
  funext fun a => Fin.ext (by
    match a with
    | ⟨0, _⟩ => show (p.val * 64 + n.val) / 1 % 64 = n.val; have := n.isLt; omega
    | ⟨1, _⟩ => rfl)

/-- Head 1: the transposed coefficient column at `(n, 0)` is the coefficient row at `(0, n)`. -/
theorem cidx_head1 (p : Fin 1000000) (q : Fin 1) (n : Fin 64) :
    idx_main_v13 (ridx_main_v14 (ix2 p q) n) = ix2 (0 : Fin 1) n :=
  funext fun a => Fin.ext (by
    match a with
    | ⟨0, _⟩ => show q.val = 0; have := q.isLt; omega
    | ⟨1, _⟩ => rfl)

/-- The reference's second result is head 1 as a column: at `(p, 0)` it is
    `∑ n, tanh (∑ d, x[p, d] · W[n, 1, d] + b[n, 1]) · c[0, n]`, the specification's sum with the factors of each
    term commuted. -/
theorem ref_v14 (x0 : (⟨S1000000x3, .f32⟩ : BufTy).Contents (Elt Ideal)) (x1 : (⟨S64x3x3, .f32⟩ : BufTy).Contents (Elt Ideal)) (x2 : (⟨S64x3, .f32⟩ : BufTy).Contents (Elt Ideal)) (x4 : (⟨S1x64, .f32⟩ : BufTy).Contents (Elt Ideal)) :
    Cert.ReferenceIdeal.Read.val_main_v14 (F := Ideal) x0 x1 x2 x4 = Cert.Spec.column x0 x1 x2 x4 1 := by
  funext i
  obtain ⟨p, q, rfl⟩ : ∃ (p : Fin 1000000) (q : Fin 1), i = ix2 p q := ⟨i 0, i 1, eq_ix2 i⟩
  rw [val_main_v14_apply]
  show _ = Cert.Spec.head x0 x1 x2 x4 1 p
  rw [Cert.Spec.head_comm]
  refine Finset.sum_congr rfl fun n _ => ?_
  rw [val_main_v8_apply, val_main_v7_apply, val_main_v4_apply, val_main_v3_apply, val_main_v0_apply,
    val_main_v2_apply, val_main_v1_apply, val_main_v13_apply]
  simp only [lidx_head1, ridx_head1, bidx_head1, cidx_head1, Ideal.hostUnary_tanh_def, Ideal.addf_def]
  rfl

/-! ## Head 2 -/

/-- Head 2: the activation read for layer `n` at sample `p` takes its left factors from the row `x[p, :]`. -/
theorem lidx_head2 (p : Fin 1000000) (q : Fin 1) (n : Fin 64) (d : Fin 3) :
    lidx_main_v0 (idx_main_v9 (idx_main_v10 (lidx_main_v16 (ix2 p q) n))) d = ix2 p d :=
  funext fun a => Fin.ext (by
    match a with
    | ⟨0, _⟩ => show (p.val * 64 + n.val) / 64 = p.val; have := n.isLt; omega
    | ⟨1, _⟩ => rfl)

/-- Head 2: the same activation takes its right factors from `W[n, 2, :]`. -/
theorem ridx_head2 (p : Fin 1000000) (q : Fin 1) (n : Fin 64) (d : Fin 3) :
    ridx_main_v0 (idx_main_v9 (idx_main_v10 (lidx_main_v16 (ix2 p q) n))) d = ix3 n (2 : Fin 3) d :=
  funext fun a => Fin.ext (by
    match a with
    | ⟨0, _⟩ => show (p.val * 64 + n.val) / 1 % 64 = n.val; have := n.isLt; omega
    | ⟨1, _⟩ => rfl
    | ⟨2, _⟩ => rfl)

/-- Head 2: the same activation's bias is `b[n, 2]`. -/
theorem bidx_head2 (p : Fin 1000000) (q : Fin 1) (n : Fin 64) :
    idx_main_v1 (idx_main_v2 (idx_main_v9 (idx_main_v10 (lidx_main_v16 (ix2 p q) n)))) = ix2 n (2 : Fin 3) :=
  funext fun a => Fin.ext (by
    match a with
    | ⟨0, _⟩ => show (p.val * 64 + n.val) / 1 % 64 = n.val; have := n.isLt; omega
    | ⟨1, _⟩ => rfl)

/-- Head 2: the transposed coefficient column at `(n, 0)` is the coefficient row at `(0, n)`. -/
theorem cidx_head2 (p : Fin 1000000) (q : Fin 1) (n : Fin 64) :
    idx_main_v15 (ridx_main_v16 (ix2 p q) n) = ix2 (0 : Fin 1) n :=
  funext fun a => Fin.ext (by
    match a with
    | ⟨0, _⟩ => show q.val = 0; have := q.isLt; omega
    | ⟨1, _⟩ => rfl)

/-- The reference's third result is head 2 as a column: at `(p, 0)` it is
    `∑ n, tanh (∑ d, x[p, d] · W[n, 2, d] + b[n, 2]) · c[0, n]`, the specification's sum with the factors of each
    term commuted. -/
theorem ref_v16 (x0 : (⟨S1000000x3, .f32⟩ : BufTy).Contents (Elt Ideal)) (x1 : (⟨S64x3x3, .f32⟩ : BufTy).Contents (Elt Ideal)) (x2 : (⟨S64x3, .f32⟩ : BufTy).Contents (Elt Ideal)) (x5 : (⟨S1x64, .f32⟩ : BufTy).Contents (Elt Ideal)) :
    Cert.ReferenceIdeal.Read.val_main_v16 (F := Ideal) x0 x1 x2 x5 = Cert.Spec.column x0 x1 x2 x5 2 := by
  funext i
  obtain ⟨p, q, rfl⟩ : ∃ (p : Fin 1000000) (q : Fin 1), i = ix2 p q := ⟨i 0, i 1, eq_ix2 i⟩
  rw [val_main_v16_apply]
  show _ = Cert.Spec.head x0 x1 x2 x5 2 p
  rw [Cert.Spec.head_comm]
  refine Finset.sum_congr rfl fun n _ => ?_
  rw [val_main_v10_apply, val_main_v9_apply, val_main_v4_apply, val_main_v3_apply, val_main_v0_apply,
    val_main_v2_apply, val_main_v1_apply, val_main_v15_apply]
  simp only [lidx_head2, ridx_head2, bidx_head2, cidx_head2, Ideal.hostUnary_tanh_def, Ideal.addf_def]
  rfl

end Cert.ReferenceIdeal.RefValue

end
-- ==== Proof.lean ====
/-
  The certificate's claim: the kernel program (three heads  ∑ n, c_k[0, n] · tanh (∑ d, x[p, d] · W[n, k, d] + b[n, k])  of a
  million samples, computed block by block on a grid of 123 points from re-laid parameters) runs, leaves its arguments
  unchanged, and at the extended reals ends with the same three columns as the reference, which computes them with one
  batched contraction over all samples.

  The three frames: the kernel program's at the word level (`Cert.Kernel.Hand.frame`, the result window's contents not
  named), the idealized kernel program's (its value run with the results dropped) and the reference's (its run with the
  results dropped). The idealization rewrote nothing, so `preserves` is trivial. At the extended reals both programs'
  results are `Cert.Spec.column` of the argument arrays: the kernel program's by `Cert.KernelIdeal.KValue.run_value`, the
  reference's by reading its run one operation at a time (`Cert.ReferenceIdeal.RefValue.ref_v12 / ref_v14 / ref_v16`);
  the two differ only in the order of the factors of the outer product, and no finiteness of the inputs is used.
-/
import proofs.«110611_j45707041964786_1_alg».proof.Defs
import proofs.«110611_j45707041964786_1_alg».proof.Proof.Gen.Kernel
import proofs.«110611_j45707041964786_1_alg».proof.Proof.Gen.KernelIdeal
import proofs.«110611_j45707041964786_1_alg».proof.Proof.Gen.ReferenceIdeal
import proofs.«110611_j45707041964786_1_alg».proof.Proof.Gen.Pre_finite_inputs
import proofs.«110611_j45707041964786_1_alg».proof.Proof.Gen.ReferenceIdeal.Run
import proofs.«110611_j45707041964786_1_alg».proof.Proof.Gen.ReferenceIdeal.Read
import proofs.«110611_j45707041964786_1_alg».proof.Proof.Spec
import proofs.«110611_j45707041964786_1_alg».proof.Proof.BFrame
import proofs.«110611_j45707041964786_1_alg».proof.Proof.KValue
import proofs.«110611_j45707041964786_1_alg».proof.Proof.RefValue
import Idealize.ShloMosaic.Adequacy
import Idealize.ShloMosaic.Init

noncomputable section

namespace Cert.Proof

open Idealize.ShloMosaic Idealize.SL.Sem

/-- The column of a head depends on the arrays only: equal arrays give equal columns. -/
theorem column_congr {x x' : (⟨2, ![1000000, 3]⟩ : Shape).Idx → EReal} {W W' : (⟨3, ![64, 3, 3]⟩ : Shape).Idx → EReal}
    {b b' : (⟨2, ![64, 3]⟩ : Shape).Idx → EReal} {ck ck' : (⟨2, ![1, 64]⟩ : Shape).Idx → EReal}
    (hx : x' = x) (hW : W' = W) (hb : b' = b) (hc : ck' = ck) (k : Fin 3) :
    Cert.Spec.column x' W' b' ck' k = Cert.Spec.column x W b ck k := by
  subst hx hW hb hc; rfl

theorem frame_k : Cert.frame_Kernel := fun m ρ _ => Cert.Kernel.Hand.frame m ρ

theorem frame_ki : Cert.frame_KernelIdeal := fun m ρ _ =>
  (θ_run Cert.KernelIdeal.defs _ _).mono (fun _ h c => (h c).2.2.2) (Cert.KernelIdeal.KValue.run_value m ρ)

theorem frame_ri : Cert.frame_ReferenceIdeal := fun m ρ _ =>
  (θ_run Cert.ReferenceIdeal.defs _ _).mono (fun _ h c => (h c).2.2.2) (Cert.ReferenceIdeal.Value.run (F := Ideal) m ρ)

/-- The idealization rewrote no operation. -/
theorem preserves : Cert.preserves_Kernel_KernelIdeal := trivial

/-- At the extended reals, from memories agreeing on the arguments, both programs end with result k at the column of
    head k of the kernel program's argument arrays. -/
theorem algebraic : Cert.algebraic_KernelIdeal_ReferenceIdeal := fun m ρ m' ρ' _ hagree =>
  ⟨_, _, _, Cert.KernelIdeal.KValue.run_value m ρ,
    (θ_run Cert.ReferenceIdeal.defs _ _).mono (fun _ h c =>
      ⟨(h c).1.trans ((Cert.ReferenceIdeal.Read.val_main_v12_eq _ _ _ _).trans ((Cert.ReferenceIdeal.RefValue.ref_v12 _ _ _ _).trans
          (column_congr (hagree c).1 (hagree c).2.1 (hagree c).2.2.1 (hagree c).2.2.2.1 0))),
        (h c).2.1.trans ((Cert.ReferenceIdeal.Read.val_main_v14_eq _ _ _ _).trans ((Cert.ReferenceIdeal.RefValue.ref_v14 _ _ _ _).trans
          (column_congr (hagree c).1 (hagree c).2.1 (hagree c).2.2.1 (hagree c).2.2.2.2.1 1))),
        (h c).2.2.1.trans ((Cert.ReferenceIdeal.Read.val_main_v16_eq _ _ _ _).trans ((Cert.ReferenceIdeal.RefValue.ref_v16 _ _ _ _).trans
          (column_congr (hagree c).1 (hagree c).2.1 (hagree c).2.2.1 (hagree c).2.2.2.2.2 2))),
        (h c).2.2.2⟩)
      (Cert.ReferenceIdeal.Value.run (F := Ideal) m' ρ')⟩

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
